-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144x3 : Shape := ⟨2, ![262144, 3]⟩
abbrev S256x768 : Shape := ⟨2, ![256, 768]⟩
abbrev S768 : Shape := ⟨1, ![768]⟩
abbrev S3x256 : Shape := ⟨2, ![3, 256]⟩
abbrev S256 : Shape := ⟨1, ![256]⟩
abbrev S256x256 : Shape := ⟨2, ![256, 256]⟩
abbrev S1x8x1x1 : Shape := ⟨4, ![1, 8, 1, 1]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144x3 : S_.BroadcastsInDim S262144x3 (![] : Fin 0 → Fin S262144x3.rank)
  reducesTo_S262144x3_S_d0_1 : S262144x3.ReducesTo [0, 1] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x8x1x1 : S_.BroadcastsInDim S1x8x1x1 (![] : Fin 0 → Fin S1x8x1x1.rank)
  reducesTo_S1x8x1x1_S_d0_1_2_3 : S1x8x1x1.ReducesTo [0, 1, 2, 3] S_

variable [Facts]

def fn_part2 {F : FTy → Type} [FloatOps F] (main_arg7 : FVec F S256 .f32) (main_arg8 : FVec F S1x8x1x1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1x8x1x1 .f32 := Host.absf main_arg8
  let main_cst_14 : FVec F S_ .f32 := constant S_ .f32 0x7F800000#32
  let main_v40 : FVec F S1x8x1x1 .f32 := broadcastInDim S1x8x1x1 ![] bcast_S_S1x8x1x1 main_cst_14
  let main_v41 : IVec S1x8x1x1 1 := cmpf .olt main_v39 main_v40
  let main_c_15 : IVec S_ 1 := constantI S_ 1 1#1
  let main_v42 : IVec S_ 1 := (fun x v => Host.reduce IntOp.andi x v reducesTo_S1x8x1x1_S_d0_1_2_3 h_S_) main_v41 main_c_15
  let main_v43 : IVec S_ 1 := andi main_v38 main_v42
  main_v43

def fn_part1 {F : FTy → Type} [FloatOps F] (main_arg4 : FVec F S3x256 .f32) (main_arg5 : FVec F S256 .f32) (main_arg6 : FVec F S256x256 .f32) (main_arg7 : FVec F S256 .f32) (main_arg8 : FVec F S1x8x1x1 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S3x256 .f32 := Host.absf main_arg4
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S262144x256 .f32) (main_arg1 : FVec F S262144x3 .f32) (main_arg2 : FVec F S256x768 .f32) (main_arg3 : FVec F S768 .f32) (main_arg4 : FVec F S3x256 .f32) (main_arg5 : FVec F S256 .f32) (main_arg6 : FVec F S256x256 .f32) (main_arg7 : FVec F S256 .f32) (main_arg8 : FVec F S1x8x1x1 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_v13 main_v16
-- ==== Kernel.lean ====
abbrev S262144x256 : Shape := ⟨2, ![262144, 256]⟩
abbrev S262144x3 : Shape := ⟨2, ![262144, 3]⟩
abbrev S256x768 : Shape := ⟨2, ![256, 768]⟩
abbrev S768 : Shape := ⟨1, ![768]⟩
abbrev S3x256 : Shape := ⟨2, ![3, 256]⟩
abbrev S256 : Shape := ⟨1, ![256]⟩
abbrev S256x256 : Shape := ⟨2, ![256, 256]⟩
abbrev S1x8x1x1 : Shape := ⟨4, ![1, 8, 1, 1]⟩
abbrev S1x768 : Shape := ⟨2, ![1, 768]⟩
abbrev S1x256 : Shape := ⟨2, ![1, 256]⟩
abbrev S2048x256 : Shape := ⟨2, ![2048, 256]⟩
abbrev S2048x3 : Shape := ⟨2, ![2048, 3]⟩
abbrev S2048x768 : Shape := ⟨2, ![2048, 768]⟩
abbrev S64x32x3 : Shape := ⟨3, ![64, 32, 3]⟩
abbrev S64x3 : Shape := ⟨2, ![64, 3]⟩
abbrev S64x1x3 : Shape := ⟨3, ![64, 1, 3]⟩
abbrev S2048x1 : Shape := ⟨2, ![2048, 1]⟩
abbrev S512x768 : Shape := ⟨2, ![512, 768]⟩
abbrev S16x32x3 : Shape := ⟨3, ![16, 32, 3]⟩
abbrev S16x32x8x32x3 : Shape := ⟨5, ![16, 32, 8, 32, 3]⟩
abbrev S16x32x8x32x1 : Shape := ⟨5, ![16, 32, 8, 32, 1]⟩
abbrev S16x32x8x32 : Shape := ⟨4, ![16, 32, 8, 32]⟩
abbrev S16x8x32x32 : Shape := ⟨4, ![16, 8, 32, 32]⟩
abbrev S128x32x32 : Shape := ⟨3, ![128, 32, 32]⟩
abbrev S16x32x1x3 : Shape := ⟨4, ![16, 32, 1, 3]⟩
abbrev S16x1x32x3 : Shape := ⟨4, ![16, 1, 32, 3]⟩
abbrev S16x32x32x3 : Shape := ⟨4, ![16, 32, 32, 3]⟩
abbrev S16x32x32 : Shape := ⟨3, ![16, 32, 32]⟩
abbrev S16x1x32x32 : Shape := ⟨4, ![16, 1, 32, 32]⟩
abbrev S128x32 : Shape := ⟨2, ![128, 32]⟩
abbrev S128x32x1 : Shape := ⟨3, ![128, 32, 1]⟩
abbrev S512x256 : Shape := ⟨2, ![512, 256]⟩

abbrev nBuf : Space → Nat
  | .hbm => 15
  | .vmem => 15
  | .smem => 0
  | _ => 0

abbrev bufTy : (tb : Table) → Fin (tcTables nBuf tb) → BufTy
  | .hbm, ⟨0, _⟩ => ⟨S262144x256, .f32⟩
  | .hbm, ⟨1, _⟩ => ⟨S262144x3, .f32⟩
  | .hbm, ⟨2, _⟩ => ⟨S256x768, .f32⟩
  | .hbm, ⟨3, _⟩ => ⟨S768, .f32⟩
  | .hbm, ⟨4, _⟩ => ⟨S3x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x8x1x1, .f32⟩
  | .hbm, ⟨9, _⟩ => ⟨S256x768, .bf16⟩
  | .hbm, ⟨10, _⟩ => ⟨S256x256, .bf16⟩
  | .hbm, ⟨11, _⟩ => ⟨S1x768, .f32⟩
  | .hbm, ⟨12, _⟩ => ⟨S1x256, .f32⟩
  | .hbm, ⟨13, _⟩ => ⟨S1x256, .f32⟩
  | .hbm, ⟨14, _⟩ => ⟨S262144x256, .f32⟩
  | .local _ .vmem, ⟨0, _⟩ => ⟨S2048x256, .f32⟩
  | .local _ .vmem, ⟨1, _⟩ => ⟨S2048x256, .f32⟩
  | .local _ .vmem, ⟨2, _⟩ => ⟨S2048x3, .f32⟩
  | .local _ .vmem, ⟨3, _⟩ => ⟨S2048x3, .f32⟩
  | .local _ .vmem, ⟨4, _⟩ => ⟨S256x768, .bf16⟩
  | .local _ .vmem, ⟨5, _⟩ => ⟨S1x768, .f32⟩
  | .local _ .vmem, ⟨6, _⟩ => ⟨S3x256, .f32⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x8x1x1, .f32⟩
  | .local _ .vmem, ⟨11, _⟩ => ⟨S2048x256, .f32⟩
  | .local _ .vmem, ⟨12, _⟩ => ⟨S2048x256, .f32⟩
  | .local _ .vmem, ⟨13, _⟩ => ⟨S2048x768, .f32⟩
  | .local _ .vmem, ⟨14, _⟩ => ⟨S2048x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S768_S1x768 : S768.ShapeCasts S1x768
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S2048x3_S2048x3_0_0 : ∀ a, (![0, 0] : Fin 2 → Nat) a + S2048x3.size a ≤ S2048x3.size a
  h_S2048x3 : 0 < S2048x3.numel
  shapeCasts_S2048x3_S64x32x3 : S2048x3.ShapeCasts S64x32x3
  reduces_S64x32x3_S64x3 : S64x32x3.Reduces [1] S64x3
  shapeCasts_S64x3_S64x1x3 : S64x3.ShapeCasts S64x1x3
  broadcasts_S64x1x3_S64x32x3 : S64x1x3.Broadcasts S64x32x3
  shapeCasts_S64x32x3_S2048x3 : S64x32x3.ShapeCasts S2048x3
  inb_S3x256_S3x256_0_0 : ∀ a, (![0, 0] : Fin 2 → Nat) a + S3x256.size a ≤ S3x256.size a
  h_S3x256 : 0 < S3x256.numel
  slices_S2048x3_o0_0_S2048x1 : S2048x3.Slices ![0, 0] S2048x1
  slices_S3x256_o0_0_S1x256 : S3x256.Slices ![0, 0] S1x256
  broadcasts_S2048x1_S2048x256 : S2048x1.Broadcasts S2048x256
  broadcasts_S1x256_S2048x256 : S1x256.Broadcasts S2048x256
  slices_S2048x3_o0_1_S2048x1 : S2048x3.Slices ![0, 1] S2048x1
  slices_S3x256_o1_0_S1x256 : S3x256.Slices ![1, 0] S1x256
  slices_S2048x3_o0_2_S2048x1 : S2048x3.Slices ![0, 2] S2048x1
  slices_S3x256_o2_0_S1x256 : S3x256.Slices ![2, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1x8x1x1_S1x8x1x1_0_0_0_0 : ∀ a, (![0, 0, 0, 0] : Fin 4 → Nat) a + S1x8x1x1.size a ≤ S1x8x1x1.size a
  h_S1x8x1x1 : 0 < S1x8x1x1.numel
  inb_S2048x768_S512x768_0_0 : ∀ a, (![0, 0] : Fin 2 → Nat) a + S512x768.size a ≤ S2048x768.size a
  h_S512x768 : 0 < S512x768.numel
  slices_S64x32x3_o0_0_0_S16x32x3 : S64x32x3.Slices ![0, 0, 0] S16x32x3
  shapeCasts_S512x768_S16x32x8x32x3 : S512x768.ShapeCasts S16x32x8x32x3
  slices_S16x32x8x32x3_o0_0_0_0_0_S16x32x8x32x1 : S16x32x8x32x3.Slices ![0, 0, 0, 0, 0] S16x32x8x32x1
  shapeCasts_S16x32x8x32x1_S16x32x8x32 : S16x32x8x32x1.ShapeCasts S16x32x8x32
  slices_S16x32x8x32x3_o0_0_0_0_1_S16x32x8x32x1 : S16x32x8x32x3.Slices ![0, 0, 0, 0, 1] S16x32x8x32x1
  slices_S16x32x8x32x3_o0_0_0_0_2_S16x32x8x32x1 : S16x32x8x32x3.Slices ![0, 0, 0, 0, 2] S16x32x8x32x1
  transposes_S16x32x8x32_p0_2_1_3_S16x8x32x32 : S16x32x8x32.Transposes [0, 2, 1, 3] S16x8x32x32
  shapeCasts_S16x8x32x32_S128x32x32 : S16x8x32x32.ShapeCasts S128x32x32
  shapeCasts_S16x32x3_S16x32x1x3 : S16x32x3.ShapeCasts S16x32x1x3
  shapeCasts_S16x32x3_S16x1x32x3 : S16x32x3.ShapeCasts S16x1x32x3
  broadcasts_S16x32x1x3_S16x32x32x3 : S16x32x1x3.Broadcasts S16x32x32x3
  broadcasts_S16x1x32x3_S16x32x32x3 : S16x1x32x3.Broadcasts S16x32x32x3
  reduces_S16x32x32x3_S16x32x32 : S16x32x32x3.Reduces [3] S16x32x32
  shapeCasts_S16x32x32_S16x1x32x32 : S16x32x32.ShapeCasts S16x1x32x32
  broadcasts_S16x1x32x32_S16x8x32x32 : S16x1x32x32.Broadcasts S16x8x32x32
  broadcasts_S1x8x1x1_S16x8x32x32 : S1x8x1x1.Broadcasts S16x8x32x32
  reduces_S128x32x32_S128x32 : S128x32x32.Reduces [2] S128x32
  shapeCasts_S128x32_S128x32x1 : S128x32.ShapeCasts S128x32x1
  broadcasts_S128x32x1_S128x32x32 : S128x32x1.Broadcasts S128x32x32
  shapeCasts_S128x32x32_S16x8x32x32 : S128x32x32.ShapeCasts S16x8x32x32
  transposes_S16x8x32x32_p0_2_1_3_S16x32x8x32 : S16x8x32x32.Transposes [0, 2, 1, 3] S16x32x8x32
  shapeCasts_S16x32x8x32_S512x256 : S16x32x8x32.ShapeCasts S512x256
  inb_S2048x256_S512x256_0_0 : ∀ a, (![0, 0] : Fin 2 → Nat) a + S512x256.size a ≤ S2048x256.size a
  h_S512x256 : 0 < S512x256.numel
  shapeCasts_S512x256_S512x256 : S512x256.ShapeCasts S512x256
  inb_S2048x768_S512x768_512_0 : ∀ a, (![512, 0] : Fin 2 → Nat) a + S512x768.size a ≤ S2048x768.size a
  slices_S64x32x3_o16_0_0_S16x32x3 : S64x32x3.Slices ![16, 0, 0] S16x32x3
  inb_S2048x256_S512x256_512_0 : ∀ a, (![512, 0] : Fin 2 → Nat) a + S512x256.size a ≤ S2048x256.size a
  inb_S2048x768_S512x768_1024_0 : ∀ a, (![1024, 0] : Fin 2 → Nat) a + S512x768.size a ≤ S2048x768.size a
  slices_S64x32x3_o32_0_0_S16x32x3 : S64x32x3.Slices ![32, 0, 0] S16x32x3
  inb_S2048x256_S512x256_1024_0 : ∀ a, (![1024, 0] : Fin 2 → Nat) a + S512x256.size a ≤ S2048x256.size a
  inb_S2048x768_S512x768_1536_0 : ∀ a, (![1536, 0] : Fin 2 → Nat) a + S512x768.size a ≤ S2048x768.size a
  slices_S64x32x3_o48_0_0_S16x32x3 : S64x32x3.Slices ![48, 0, 0] S16x32x3
  inb_S2048x256_S512x256_1536_0 : ∀ a, (![1536, 0] : Fin 2 → Nat) a + S512x256.size a ≤ S2048x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S2048x256_S256x768_S2048x768_1_0_0_1_n_n_wf : DotDims.WF S2048x256 S256x768 S2048x768 [1] [0] [0] [1] [] []
  dot_S128x32x32_S128x32x32_S128x32x32_2_2_1_1_0_0_wf : DotDims.WF S128x32x32 S128x32x32 S128x32x32 [2] [2] [1] [1] [0] [0]
  dot_S128x32x32_S128x32x32_S128x32x32_2_1_1_2_0_0_wf : DotDims.WF S128x32x32 S128x32x32 S128x32x32 [2] [1] [1] [2] [0] [0]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S262144x3.size a
  hwx0_1 : ∀ i : grid0.Coords, EltTy.bits .f32 = 32 ∨ (Rect.block (s := S262144x3) S2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x256.size a
  hwx0_4 : ∀ i : grid0.Coords, EltTy.bits .f32 = 32 ∨ (Rect.block (s := S3x256) S3x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8x1x1.size a ≤ S1x8x1x1.size a
  hwx0_8 : ∀ i : grid0.Coords, EltTy.bits .f32 = 32 ∨ (Rect.block (s := S1x8x1x1) S1x8x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S262144x256.size a
  hwx0_9 : ∀ i : grid0.Coords, EltTy.bits .f32 = 32 ∨ (Rect.block (s := S262144x256) S2048x256.size (cc0_transform_9 i) (hinb0_9 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S128x32x32_S128x32x32_S128x32x32_2_2_1_1_0_0 : DotDims S128x32x32 S128x32x32 S128x32x32 where
  lhsContracting := [2]
  rhsContracting := [2]
  lhsNonContracting := [1]
  rhsNonContracting := [1]
  lhsBatch := [0]
  rhsBatch := [0]
  wf := dot_S128x32x32_S128x32x32_S128x32x32_2_2_1_1_0_0_wf
def dot_S128x32x32_S128x32x32_S128x32x32_2_1_1_2_0_0 : DotDims S128x32x32 S128x32x32 S128x32x32 where
  lhsContracting := [2]
  rhsContracting := [1]
  lhsNonContracting := [1]
  rhsNonContracting := [2]
  lhsBatch := [0]
  rhsBatch := [0]
  wf := dot_S128x32x32_S128x32x32_S128x32x32_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x8x1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144x3 : Shape := ⟨2, ![262144, 3]⟩
abbrev S256x768 : Shape := ⟨2, ![256, 768]⟩
abbrev S768 : Shape := ⟨1, ![768]⟩
abbrev S3x256 : Shape := ⟨2, ![3, 256]⟩
abbrev S256 : Shape := ⟨1, ![256]⟩
abbrev S256x256 : Shape := ⟨2, ![256, 256]⟩
abbrev S1x8x1x1 : Shape := ⟨4, ![1, 8, 1, 1]⟩
abbrev S8192x32x3 : Shape := ⟨3, ![8192, 32, 3]⟩
abbrev S_ : Shape := ⟨0, ![]⟩
abbrev S8192x3 : Shape := ⟨2, ![8192, 3]⟩
abbrev S8192x1x3 : Shape := ⟨3, ![8192, 1, 3]⟩
abbrev S1x256 : Shape := ⟨2, ![1, 256]⟩
abbrev S262144x768 : Shape := ⟨2, ![262144, 768]⟩
abbrev S1x768 : Shape := ⟨2, ![1, 768]⟩
abbrev S8192x32x8x32x3 : Shape := ⟨5, ![8192, 32, 8, 32, 3]⟩
abbrev S8192x32x8x32x1 : Shape := ⟨5, ![8192, 32, 8, 32, 1]⟩
abbrev S8192x32x8x32 : Shape := ⟨4, ![8192, 32, 8, 32]⟩
abbrev S8192x8x32x32 : Shape := ⟨4, ![8192, 8, 32, 32]⟩
abbrev S8192x32x1x3 : Shape := ⟨4, ![8192, 32, 1, 3]⟩
abbrev S8192x1x32x3 : Shape := ⟨4, ![8192, 1, 32, 3]⟩
abbrev S8192x32x32x3 : Shape := ⟨4, ![8192, 32, 32, 3]⟩
abbrev S8192x32x32 : Shape := ⟨3, ![8192, 32, 32]⟩
abbrev S8192x1x32x32 : Shape := ⟨4, ![8192, 1, 32, 32]⟩
abbrev S8192x8x32 : Shape := ⟨3, ![8192, 8, 32]⟩
abbrev S8192x8x32x1 : Shape := ⟨4, ![8192, 8, 32, 1]⟩

abbrev nBuf : Space → Nat
  | .hbm => 80
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x3, .f32⟩
  | .hbm, ⟨2, _⟩ => ⟨S256x768, .f32⟩
  | .hbm, ⟨3, _⟩ => ⟨S768, .f32⟩
  | .hbm, ⟨4, _⟩ => ⟨S3x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x8x1x1, .f32⟩
  | .hbm, ⟨9, _⟩ => ⟨S8192x32x3, .f32⟩
  | .hbm, ⟨10, _⟩ => ⟨S_, .f32⟩
  | .hbm, ⟨11, _⟩ => ⟨S8192x3, .f32⟩
  | .hbm, ⟨12, _⟩ => ⟨S8192x1x3, .f32⟩
  | .hbm, ⟨13, _⟩ => ⟨S_, .f32⟩
  | .hbm, ⟨14, _⟩ => ⟨S8192x1x3, .f32⟩
  | .hbm, ⟨15, _⟩ => ⟨S8192x1x3, .f32⟩
  | .hbm, ⟨16, _⟩ => ⟨S8192x32x3, .f32⟩
  | .hbm, ⟨17, _⟩ => ⟨S8192x32x3, .f32⟩
  | .hbm, ⟨18, _⟩ => ⟨S262144x3, .f32⟩
  | .hbm, ⟨19, _⟩ => ⟨S262144x256, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S262144x768, .f32⟩
  | .hbm, ⟨25, _⟩ => ⟨S1x768, .f32⟩
  | .hbm, ⟨26, _⟩ => ⟨S262144x768, .f32⟩
  | .hbm, ⟨27, _⟩ => ⟨S262144x768, .f32⟩
  | .hbm, ⟨28, _⟩ => ⟨S8192x32x8x32x3, .f32⟩
  | .hbm, ⟨29, _⟩ => ⟨S8192x32x8x32x1, .f32⟩
  | .hbm, ⟨30, _⟩ => ⟨S8192x32x8x32, .f32⟩
  | .hbm, ⟨31, _⟩ => ⟨S8192x8x32x32, .f32⟩
  | .hbm, ⟨32, _⟩ => ⟨S8192x32x8x32x1, .f32⟩
  | .hbm, ⟨33, _⟩ => ⟨S8192x32x8x32, .f32⟩
  | .hbm, ⟨34, _⟩ => ⟨S8192x8x32x32, .f32⟩
  | .hbm, ⟨35, _⟩ => ⟨S8192x32x8x32x1, .f32⟩
  | .hbm, ⟨36, _⟩ => ⟨S8192x32x8x32, .f32⟩
  | .hbm, ⟨37, _⟩ => ⟨S8192x8x32x32, .f32⟩
  | .hbm, ⟨38, _⟩ => ⟨S8192x32x1x3, .f32⟩
  | .hbm, ⟨39, _⟩ => ⟨S8192x1x32x3, .f32⟩
  | .hbm, ⟨40, _⟩ => ⟨S8192x32x32x3, .f32⟩
  | .hbm, ⟨41, _⟩ => ⟨S8192x32x32x3, .f32⟩
  | .hbm, ⟨42, _⟩ => ⟨S8192x32x32x3, .f32⟩
  | .hbm, ⟨43, _⟩ => ⟨S8192x32x32x3, .f32⟩
  | .hbm, ⟨44, _⟩ => ⟨S_, .f32⟩
  | .hbm, ⟨45, _⟩ => ⟨S8192x32x32, .f32⟩
  | .hbm, ⟨46, _⟩ => ⟨S_, .f32⟩
  | .hbm, ⟨47, _⟩ => ⟨S8192x32x32, .f32⟩
  | .hbm, ⟨48, _⟩ => ⟨S8192x32x32, .f32⟩
  | .hbm, ⟨49, _⟩ => ⟨S8192x32x32, .f32⟩
  | .hbm, ⟨50, _⟩ => ⟨S8192x1x32x32, .f32⟩
  | .hbm, ⟨51, _⟩ => ⟨S8192x8x32x32, .f32⟩
  | .hbm, ⟨52, _⟩ => ⟨S8192x8x32x32, .f32⟩
  | .hbm, ⟨53, _⟩ => ⟨S8192x8x32x32, .f32⟩
  | .hbm, ⟨54, _⟩ => ⟨S8192x8x32x32, .f32⟩
  | .hbm, ⟨55, _⟩ => ⟨S_, .f32⟩
  | .hbm, ⟨56, _⟩ => ⟨S8192x8x32x32, .f32⟩
  | .hbm, ⟨57, _⟩ => ⟨S8192x8x32x32, .f32⟩
  | .hbm, ⟨58, _⟩ => ⟨S8192x8x32x32, .f32⟩
  | .hbm, ⟨59, _⟩ => ⟨S_, .f32⟩
  | .hbm, ⟨60, _⟩ => ⟨S8192x8x32, .f32⟩
  | .hbm, ⟨61, _⟩ => ⟨S_, .f32⟩
  | .hbm, ⟨62, _⟩ => ⟨S8192x8x32, .f32⟩
  | .hbm, ⟨63, _⟩ => ⟨S8192x8x32, .f32⟩
  | .hbm, ⟨64, _⟩ => ⟨S8192x8x32x1, .f32⟩
  | .hbm, ⟨65, _⟩ => ⟨S8192x8x32x32, .f32⟩
  | .hbm, ⟨66, _⟩ => ⟨S8192x8x32x32, .f32⟩
  | .hbm, ⟨67, _⟩ => ⟨S8192x8x32x32, .f32⟩
  | .hbm, ⟨68, _⟩ => ⟨S_, .f32⟩
  | .hbm, ⟨69, _⟩ => ⟨S8192x8x32, .f32⟩
  | .hbm, ⟨70, _⟩ => ⟨S8192x8x32x1, .f32⟩
  | .hbm, ⟨71, _⟩ => ⟨S8192x8x32x32, .f32⟩
  | .hbm, ⟨72, _⟩ => ⟨S8192x8x32x32, .f32⟩
  | .hbm, ⟨73, _⟩ => ⟨S8192x8x32x32, .f32⟩
  | .hbm, ⟨74, _⟩ => ⟨S8192x32x8x32, .f32⟩
  | .hbm, ⟨75, _⟩ => ⟨S262144x256, .f32⟩
  | .hbm, ⟨76, _⟩ => ⟨S262144x256, .f32⟩
  | .hbm, ⟨77, _⟩ => ⟨S1x256, .f32⟩
  | .hbm, ⟨78, _⟩ => ⟨S262144x256, .f32⟩
  | .hbm, ⟨79, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]

class Facts₀ : Prop where
  shapeCasts_S262144x3_S8192x32x3 : S262144x3.ShapeCasts S8192x32x3
  reducesTo_S8192x32x3_S8192x3_d1 : S8192x32x3.ReducesTo [1] S8192x3
  h_S_ : 0 < S_.numel
  bcast_S8192x3_S8192x1x3_0_2 : S8192x3.BroadcastsInDim S8192x1x3 (![0, 2] : Fin 2 → Fin S8192x1x3.rank)
  bcast_S_S8192x1x3 : S_.BroadcastsInDim S8192x1x3 (![] : Fin 0 → Fin S8192x1x3.rank)
  bcast_S8192x1x3_S8192x32x3_0_1_2 : S8192x1x3.BroadcastsInDim S8192x32x3 (![0, 1, 2] : Fin 3 → Fin S8192x32x3.rank)
  shapeCasts_S8192x32x3_S262144x3 : S8192x32x3.ShapeCasts S262144x3
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S768_S1x768_1 : S768.BroadcastsInDim S1x768 (![1] : Fin 1 → Fin S1x768.rank)
  bcast_S1x768_S262144x768_0_1 : S1x768.BroadcastsInDim S262144x768 (![0, 1] : Fin 2 → Fin S262144x768.rank)
  shapeCasts_S262144x768_S8192x32x8x32x3 : S262144x768.ShapeCasts S8192x32x8x32x3
  slices_S8192x32x8x32x3_S8192x32x8x32x1_0_0_0_0_0 : S8192x32x8x32x3.Slices ![0, 0, 0, 0, 0] S8192x32x8x32x1
  shapeCasts_S8192x32x8x32x1_S8192x32x8x32 : S8192x32x8x32x1.ShapeCasts S8192x32x8x32
  transposes_S8192x32x8x32_S8192x8x32x32_0_2_1_3 : S8192x32x8x32.Transposes [0, 2, 1, 3] S8192x8x32x32
  slices_S8192x32x8x32x3_S8192x32x8x32x1_0_0_0_0_1 : S8192x32x8x32x3.Slices ![0, 0, 0, 0, 1] S8192x32x8x32x1
  slices_S8192x32x8x32x3_S8192x32x8x32x1_0_0_0_0_2 : S8192x32x8x32x3.Slices ![0, 0, 0, 0, 2] S8192x32x8x32x1
  bcast_S8192x32x3_S8192x32x1x3_0_1_3 : S8192x32x3.BroadcastsInDim S8192x32x1x3 (![0, 1, 3] : Fin 3 → Fin S8192x32x1x3.rank)
  bcast_S8192x32x3_S8192x1x32x3_0_2_3 : S8192x32x3.BroadcastsInDim S8192x1x32x3 (![0, 2, 3] : Fin 3 → Fin S8192x1x32x3.rank)
  bcast_S8192x32x1x3_S8192x32x32x3_0_1_2_3 : S8192x32x1x3.BroadcastsInDim S8192x32x32x3 (![0, 1, 2, 3] : Fin 4 → Fin S8192x32x32x3.rank)
  bcast_S8192x1x32x3_S8192x32x32x3_0_1_2_3 : S8192x1x32x3.BroadcastsInDim S8192x32x32x3 (![0, 1, 2, 3] : Fin 4 → Fin S8192x32x32x3.rank)
  reducesTo_S8192x32x32x3_S8192x32x32_d3 : S8192x32x32x3.ReducesTo [3] S8192x32x32
  bcast_S_S8192x32x32 : S_.BroadcastsInDim S8192x32x32 (![] : Fin 0 → Fin S8192x32x32.rank)
  bcast_S8192x32x32_S8192x1x32x32_0_2_3 : S8192x32x32.BroadcastsInDim S8192x1x32x32 (![0, 2, 3] : Fin 3 → Fin S8192x1x32x32.rank)
  bcast_S1x8x1x1_S8192x8x32x32_0_1_2_3 : S1x8x1x1.BroadcastsInDim S8192x8x32x32 (![0, 1, 2, 3] : Fin 4 → Fin S8192x8x32x32.rank)
  bcast_S8192x1x32x32_S8192x8x32x32_0_1_2_3 : S8192x1x32x32.BroadcastsInDim S8192x8x32x32 (![0, 1, 2, 3] : Fin 4 → Fin S8192x8x32x32.rank)
  bcast_S_S8192x8x32x32 : S_.BroadcastsInDim S8192x8x32x32 (![] : Fin 0 → Fin S8192x8x32x32.rank)
  reducesTo_S8192x8x32x32_S8192x8x32_d3 : S8192x8x32x32.ReducesTo [3] S8192x8x32
  bcast_S_S8192x8x32 : S_.BroadcastsInDim S8192x8x32 (![] : Fin 0 → Fin S8192x8x32.rank)
  bcast_S8192x8x32_S8192x8x32x1_0_1_2 : S8192x8x32.BroadcastsInDim S8192x8x32x1 (![0, 1, 2] : Fin 3 → Fin S8192x8x32x1.rank)
  bcast_S8192x8x32x1_S8192x8x32x32_0_1_2_3 : S8192x8x32x1.BroadcastsInDim S8192x8x32x32 (![0, 1, 2, 3] : Fin 4 → Fin S8192x8x32x32.rank)
  transposes_S8192x8x32x32_S8192x32x8x32_0_2_1_3 : S8192x8x32x32.Transposes [0, 2, 1, 3] S8192x32x8x32
  shapeCasts_S8192x32x8x32_S262144x256 : S8192x32x8x32.ShapeCasts S262144x256
  dot_S262144x3_S3x256_S262144x256_1_0_0_1_n_n_wf : DotDims.WF S262144x3 S3x256 S262144x256 [1] [0] [0] [1] [] []
  dot_S262144x256_S256x768_S262144x768_1_0_0_1_n_n_wf : DotDims.WF S262144x256 S256x768 S262144x768 [1] [0] [0] [1] [] []
  dot_S8192x8x32x32_S8192x8x32x32_S8192x8x32x32_3_3_2_2_01_01_wf : DotDims.WF S8192x8x32x32 S8192x8x32x32 S8192x8x32x32 [3] [3] [2] [2] [0, 1] [0, 1]
  dot_S8192x8x32x32_S8192x8x32x32_S8192x8x32x32_3_2_2_3_01_01_wf : DotDims.WF S8192x8x32x32 S8192x8x32x32 S8192x8x32x32 [3] [2] [2] [3] [0, 1] [0, 1]
  dot_S262144x256_S256x256_S262144x256_1_0_0_1_n_n_wf : DotDims.WF S262144x256 S256x256 S262144x256 [1] [0] [0] [1] [] []

variable [Facts₀]

def dot_S262144x3_S3x256_S262144x256_1_0_0_1_n_n : DotDims S262144x3 S3x256 S262144x256 where
  lhsContracting := [1]
  rhsContracting := [0]
  lhsNonContracting := [0]
  rhsNonContracting := [1]
  lhsBatch := []
  rhsBatch := []
  wf := dot_S262144x3_S3x256_S262144x256_1_0_0_1_n_n_wf
def dot_S262144x256_S256x768_S262144x768_1_0_0_1_n_n : DotDims S262144x256 S256x768 S262144x768 where
  lhsContracting := [1]
  rhsContracting := [0]
  lhsNonContracting := [0]
  rhsNonContracting := [1]
  lhsBatch := []
  rhsBatch := []
  wf := dot_S262144x256_S256x768_S262144x768_1_0_0_1_n_n_wf
def dot_S8192x8x32x32_S8192x8x32x32_S8192x8x32x32_3_3_2_2_01_01 : DotDims S8192x8x32x32 S8192x8x32x32 S8192x8x32x32 where
  lhsContracting := [3]
  rhsContracting := [3]
  lhsNonContracting := [2]
  rhsNonContracting := [2]
  lhsBatch := [0, 1]
  rhsBatch := [0, 1]
  wf := dot_S8192x8x32x32_S8192x8x32x32_S8192x8x32x32_3_3_2_2_01_01_wf
def dot_S8192x8x32x32_S8192x8x32x32_S8192x8x32x32_3_2_2_3_01_01 : DotDims S8192x8x32x32 S8192x8x32x32 S8192x8x32x32 where
  lhsContracting := [3]
  rhsContracting := [2]
  lhsNonContracting := [2]
  rhsNonContracting := [3]
  lhsBatch := [0, 1]
  rhsBatch := [0, 1]
  wf := dot_S8192x8x32x32_S8192x8x32x32_S8192x8x32x32_3_2_2_3_01_01_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Chunk.lean ====
/-
  One chunk of the kernel's body as one function.

  The body treats its 64 balls in four chunks of 16. For a chunk it takes the 512 projected rows (768 numbers each)
  and the 16 balls' positions and produces the 512 rows of the heads' outputs side by side. The stages: the
  query, key and value parts of the projected rows re-laid per (ball, head) as 128 matrices of 32 by 32; the
  squared distances inside each ball; the bias (floored distance times the head's coefficient); the scaled
  query-key products; the exponentials of the scores minus the row's top; their normalisation; the weighted sums
  of the values, re-laid as rows. The four chunks of the printed body are cut into named intermediate values at
  different places; each composite is this one function.
-/
import proofs.«173495_j42880953483553_1_alg».proof.Proof.Gen.KernelIdeal.Skeleton

set_option synthInstance.maxSize 4096

noncomputable section

namespace Cert.KernelIdeal.Body

open Idealize.ShloMosaic Idealize.SL.Sem Cert.KernelIdeal Cert.KernelIdeal.Gen

variable {F : FTy → Type} [FloatOps F]

/-- The projected rows of a chunk as [ball, point, head, coordinate, part]. -/
def split5 (qc : Vec F S512x768 .f32) : FVec F S16x32x8x32x3 .f32 :=
  shapeCast S16x32x8x32x3 qc shapeCasts_S512x768_S16x32x8x32x3

/-- From [ball, point, head, coordinate, 1] to one 32-by-32 matrix per (ball, head). -/
def perHead (s : FVec F S16x32x8x32x1 .f32) : FVec F S128x32x32 .bf16 :=
  truncf .bf16 (shapeCast S128x32x32 (transpose S16x8x32x32 [0, 2, 1, 3] (shapeCast S16x32x8x32 s shapeCasts_S16x32x8x32x1_S16x32x8x32)
    transposes_S16x32x8x32_p0_2_1_3_S16x8x32x32) shapeCasts_S16x8x32x32_S128x32x32) bitsLt_bf16_f32

/-- The query, key and value parts. -/
def part0 (qc : Vec F S512x768 .f32) : FVec F S128x32x32 .bf16 :=
  perHead (extractStridedSlice S16x32x8x32x1 ![0, 0, 0, 0, 0] (split5 qc) slices_S16x32x8x32x3_o0_0_0_0_0_S16x32x8x32x1)
def part1 (qc : Vec F S512x768 .f32) : FVec F S128x32x32 .bf16 :=
  perHead (extractStridedSlice S16x32x8x32x1 ![0, 0, 0, 0, 1] (split5 qc) slices_S16x32x8x32x3_o0_0_0_0_1_S16x32x8x32x1)
def part2 (qc : Vec F S512x768 .f32) : FVec F S128x32x32 .bf16 :=
  perHead (extractStridedSlice S16x32x8x32x1 ![0, 0, 0, 0, 2] (split5 qc) slices_S16x32x8x32x3_o0_0_0_0_2_S16x32x8x32x1)

/-- The squared distance between two points of a ball. -/
def sqDist (p : FVec F S16x32x3 .f32) : FVec F S16x32x32 .f32 :=
  have d : FVec F S16x32x32x3 .f32 := subf
    (broadcastTo S16x32x32x3 (shapeCast S16x32x1x3 p shapeCasts_S16x32x3_S16x32x1x3) broadcasts_S16x32x1x3_S16x32x32x3)
    (broadcastTo S16x32x32x3 (shapeCast S16x1x32x3 p shapeCasts_S16x32x3_S16x1x32x3) broadcasts_S16x1x32x3_S16x32x32x3)
  multiReduction .add [3] S16x32x32 (mulf d d) 0x00000000#32 reduces_S16x32x32x3_S16x32x32 (.inl rfl) rfl

/-- The bias: the floored distance times the head's coefficient, per (ball, head). -/
def bias (d2 : FVec F S16x32x32 .f32) (eps : F .f32) (sg : Vec F S1x8x1x1 .f32) : FVec F S128x32x32 .f32 :=
  shapeCast S128x32x32 (mulf
    (broadcastTo S16x8x32x32 (shapeCast S16x1x32x32 (sqrt (maximumf d2 (broadcast S16x32x32 eps))) shapeCasts_S16x32x32_S16x1x32x32)
      broadcasts_S16x1x32x32_S16x8x32x32)
    (broadcastTo S16x8x32x32 sg broadcasts_S1x8x1x1_S16x8x32x32)) shapeCasts_S16x8x32x32_S128x32x32

/-- The scaled query-key products. -/
def scaled (q k : FVec F S128x32x32 .bf16) : FVec F S128x32x32 .f32 :=
  mulf (matmul dot_S128x32x32_S128x32x32_S128x32x32_2_2_1_1_0_0 none q k (constant S128x32x32 .f32 0x00000000#32))
    (broadcast S128x32x32 (Scalar.ofBits .f32 0x3E3504F3#32))

/-- The exponential of a score minus its row's top. -/
def expd (s : FVec F S128x32x32 .f32) : FVec F S128x32x32 .f32 :=
  exp (subf s (broadcastTo S128x32x32 (shapeCast S128x32x1
    (maximumf (broadcast S128x32 (Scalar.ofBits .f32 0xFF800000#32))
      (multiReduction .maximumf [2] S128x32 s 0xFF800000#32 reduces_S128x32x32_S128x32 (.inl rfl) rfl))
    shapeCasts_S128x32_S128x32x1) broadcasts_S128x32x1_S128x32x32))

/-- Normalisation by the row's sum. -/
def normd (e : FVec F S128x32x32 .f32) : FVec F S128x32x32 .bf16 :=
  truncf .bf16 (divf e (broadcastTo S128x32x32 (shapeCast S128x32x1
    (multiReduction .add [2] S128x32 e 0x00000000#32 reduces_S128x32x32_S128x32 (.inl rfl) rfl)
    shapeCasts_S128x32_S128x32x1) broadcasts_S128x32x1_S128x32x32)) bitsLt_bf16_f32

/-- The weighted sums of the values, re-laid as 512 rows of 256. -/
def gathered (a v : FVec F S128x32x32 .bf16) : FVec F S512x256 .f32 :=
  shapeCast S512x256 (shapeCast S512x256 (transpose S16x32x8x32 [0, 2, 1, 3]
    (shapeCast S16x8x32x32 (matmul dot_S128x32x32_S128x32x32_S128x32x32_2_1_1_2_0_0 none a v (constant S128x32x32 .f32 0x00000000#32))
      shapeCasts_S128x32x32_S16x8x32x32) transposes_S16x8x32x32_p0_2_1_3_S16x32x8x32) shapeCasts_S16x32x8x32_S512x256)
    shapeCasts_S512x256_S512x256

/-- A chunk: from its projected rows, its balls' positions, the floor and the heads' coefficients to its output rows. -/
def chunkOut (qc : Vec F S512x768 .f32) (p : FVec F S16x32x3 .f32) (eps : F .f32) (sg : Vec F S1x8x1x1 .f32) : FVec F S512x256 .f32 :=
  gathered (normd (expd (addf (scaled (part0 qc) (part1 qc)) (bias (sqDist p) eps sg)))) (part2 qc)

/-- The positions of the balls of chunk 0, 1, 2, 3 among the block's 64 balls. -/
def balls0 (v2 : FVec F S64x32x3 .f32) : FVec F S16x32x3 .f32 := extractStridedSlice S16x32x3 ![0, 0, 0] v2 slices_S64x32x3_o0_0_0_S16x32x3
def balls1 (v2 : FVec F S64x32x3 .f32) : FVec F S16x32x3 .f32 := extractStridedSlice S16x32x3 ![16, 0, 0] v2 slices_S64x32x3_o16_0_0_S16x32x3
def balls2 (v2 : FVec F S64x32x3 .f32) : FVec F S16x32x3 .f32 := extractStridedSlice S16x32x3 ![32, 0, 0] v2 slices_S64x32x3_o32_0_0_S16x32x3
def balls3 (v2 : FVec F S64x32x3 .f32) : FVec F S16x32x3 .f32 := extractStridedSlice S16x32x3 ![48, 0, 0] v2 slices_S64x32x3_o48_0_0_S16x32x3

/-- The floor under a squared distance, as the body spells it. -/
abbrev floorWord : F .f32 := Scalar.ofBits .f32 0x2B8CBCCC#32

/-- Each chunk's composite of the printed intermediate values is `chunkOut`. -/
theorem chunk0_eq (v2 : FVec F S64x32x3 .f32) (v44 : Vec F S1x8x1x1 .f32) (v45 : Vec F S512x768 .f32) :
    k0_pay7 (k0_pay5 v45) (k0_pay6 v2 v44 v45) = chunkOut v45 (balls0 v2) floorWord v44 := rfl

theorem chunk1_eq (v2 : FVec F S64x32x3 .f32) (v44 : Vec F S1x8x1x1 .f32) (v101 : Vec F S512x768 .f32) :
    k0_pay11 (k0_pay9 v101) (k0_pay10 v2 v44 v101) = chunkOut v101 (balls1 v2) floorWord v44 := rfl

theorem chunk2_eq (v2 : FVec F S64x32x3 .f32) (v44 : Vec F S1x8x1x1 .f32) (v157 : Vec F S512x768 .f32) (w : F .f32) :
    k0_pay16 v44 (k0_pay13 v157) (k0_pay14 v157) (k0_pay15 v2) w = chunkOut v157 (balls2 v2) w v44 := rfl

theorem chunk3_eq (v2 : FVec F S64x32x3 .f32) (v44 : Vec F S1x8x1x1 .f32) (v213 : Vec F S512x768 .f32) :
    k0_pay21 v44 (k0_pay17 v2) (k0_pay19 v213) (k0_pay20 v213) = chunkOut v213 (balls3 v2) floorWord v44 := rfl

end Cert.KernelIdeal.Body

end
-- ==== Proof.Spec.lean ====
/-
  The common specification of the two programs: attention inside balls of 32 consecutive points, with a
  bias proportional to the distance between two points of a ball, index by index over the extended reals.

  A ball has 32 points; point m has a feature row X m (256 numbers) and a position P m (3 numbers).
  * The position is centred on the ball's mean (the sum of the 32 positions divided by 32) and embedded by a
    3-by-256 matrix: the three products are added left to right, and the result and a bias are added to X m.
  * A 256-by-768 projection with a bias gives, per point, 768 numbers: column (h·32 + e)·3 + c holds coordinate e
    of head h of the query (c = 0), the key (c = 1) or the value (c = 2).
  * The score of points m, k under head h is the dot product of m's query and k's key, times a fixed scale, plus
    the distance between the two positions (the square root of the larger of the squared distance and a tiny
    constant) times the head's coefficient.
  * The scores of m are turned into weights by the exponential of the score minus the row's top score (the fold
    of max from minus infinity, again capped below by minus infinity), divided by the sum of these exponentials.
  * Head h's output at m is the weighted sum of the values; the 8 heads' outputs side by side (column h·32 + e)
    go through a 256-by-256 projection with a bias.
  Row r of the whole array belongs to ball r / 32 as its point r % 32.
-/
import Idealize.ShloMosaic.Lib.ValueIdx
import Idealize.ShloMosaic.PureOps.Ideal.Laws

noncomputable section

namespace Cert.BallAttention

open Idealize.ShloMosaic Idealize.ShloMosaic.ValueIdx

/-- The float constants of both programs, as extended reals: 32, the tiny floor under a squared distance, the
    score scale, and minus infinity. -/
abbrev c32 : EReal := Ideal.ofBits .f32 0x42000000#32
abbrev tiny : EReal := Ideal.ofBits .f32 0x2B8CBCCC#32
abbrev scale : EReal := Ideal.ofBits .f32 0x3E3504F3#32
abbrev bot : EReal := Ideal.ofBits .f32 0xFF800000#32

/-- Column of the fused projection that holds coordinate `e` of head `h` of part `c` (query, key, value). -/
def col (h : Fin 8) (e : Fin 32) (c : Fin 3) : Fin 768 :=
  ⟨(h.val * 32 + e.val) * 3 + c.val, by have := h.isLt; have := e.isLt; have := c.isLt; omega⟩

/-- Column of the heads' outputs side by side that holds coordinate `e` of head `h`. -/
def hcol (h : Fin 8) (e : Fin 32) : Fin 256 :=
  ⟨h.val * 32 + e.val, by have := h.isLt; have := e.isLt; omega⟩

section Ball

variable (P : Fin 32 → Fin 3 → EReal)

/-- The ball's mean position, coordinate `d`. -/
def centre (d : Fin 3) : EReal := Ideal.div (∑ j : Fin 32, P j d) c32

/-- Point `m`'s position relative to the mean. -/
def rel (m : Fin 32) (d : Fin 3) : EReal := P m d - centre P d

/-- The feature row with the embedded relative position and its bias added. -/
def embed (X : Fin 32 → Fin 256 → EReal) (Wpe : Fin 3 → Fin 256 → EReal) (Bpe : Fin 256 → EReal)
    (m : Fin 32) (k : Fin 256) : EReal :=
  X m k + (rel P m 0 * Wpe 0 k + rel P m 1 * Wpe 1 k + rel P m 2 * Wpe 2 k) + Bpe k

/-- A projection with a bias: row `m` of `Y` times `W`, plus `B`. -/
def project {K N : Nat} (Y : Fin 32 → Fin K → EReal) (W : Fin K → Fin N → EReal) (B : Fin N → EReal)
    (m : Fin 32) (j : Fin N) : EReal :=
  (∑ k : Fin K, Y m k * W k j) + B j

/-- The distance between two points of the ball, floored. -/
def dist (m k : Fin 32) : EReal :=
  Ideal.sqrt (max (∑ d : Fin 3, (P m d - P k d) * (P m d - P k d)) tiny)

variable (Q : Fin 32 → Fin 768 → EReal) (S : Fin 8 → EReal)

/-- The score of `m` against `k` under head `h`. -/
def score (h : Fin 8) (m k : Fin 32) : EReal :=
  (∑ e : Fin 32, Q m (col h e 0) * Q k (col h e 1)) * scale + dist P m k * S h

/-- The top score of row `m`. -/
def top (h : Fin 8) (m : Fin 32) : EReal :=
  max bot ((Finset.univ : Finset (Fin 32)).fold max bot (fun k => score P Q S h m k))

/-- The unnormalised weight. -/
def weight (h : Fin 8) (m k : Fin 32) : EReal := Ideal.exp (score P Q S h m k - top P Q S h m)

/-- The attention weight. -/
def attn (h : Fin 8) (m k : Fin 32) : EReal :=
  Ideal.div (weight P Q S h m k) (∑ k' : Fin 32, weight P Q S h m k')

/-- Head `h`'s output at point `m`, coordinate `e`. -/
def mixed (m : Fin 32) (h : Fin 8) (e : Fin 32) : EReal :=
  ∑ k : Fin 32, attn P Q S h m k * Q k (col h e 2)

/-- The heads' outputs side by side. -/
def heads (m : Fin 32) (k : Fin 256) : EReal :=
  mixed P Q S m ⟨k.val / 32, by have := k.isLt; omega⟩ ⟨k.val % 32, Nat.mod_lt _ (by decide)⟩

end Ball

/-- One ball, from its rows to its output rows. -/
def ball (X : Fin 32 → Fin 256 → EReal) (P : Fin 32 → Fin 3 → EReal)
    (Wqkv : Fin 256 → Fin 768 → EReal) (Bqkv : Fin 768 → EReal) (Wpe : Fin 3 → Fin 256 → EReal) (Bpe : Fin 256 → EReal)
    (Wproj : Fin 256 → Fin 256 → EReal) (Bproj : Fin 256 → EReal) (S : Fin 8 → EReal) (m : Fin 32) (q : Fin 256) : EReal :=
  project (heads P (project (embed P X Wpe Bpe) Wqkv Bqkv) S) Wproj Bproj m q

/-- Row `m` of the ball that holds row `r` of an array of `R` rows (`R` a multiple of 32). -/
def ballRow {R : Nat} (hR : R % 32 = 0) (r : Fin R) (m : Fin 32) : Fin R :=
  ⟨r.val / 32 * 32 + m.val, by have := r.isLt; have := m.isLt; omega⟩

/-- The whole result: every row from its ball, over arrays of `R` rows. -/
def result {R : Nat} (hR : R % 32 = 0)
    (x : (⟨2, ![R, 256]⟩ : Shape).Idx → EReal) (pos : (⟨2, ![R, 3]⟩ : Shape).Idx → EReal)
    (wqkv : (⟨2, ![256, 768]⟩ : Shape).Idx → EReal) (bqkv : (⟨1, ![768]⟩ : Shape).Idx → EReal)
    (wpe : (⟨2, ![3, 256]⟩ : Shape).Idx → EReal) (bpe : (⟨1, ![256]⟩ : Shape).Idx → EReal)
    (wproj : (⟨2, ![256, 256]⟩ : Shape).Idx → EReal) (bproj : (⟨1, ![256]⟩ : Shape).Idx → EReal)
    (sigma : (⟨4, ![1, 8, 1, 1]⟩ : Shape).Idx → EReal) (i : (⟨2, ![R, 256]⟩ : Shape).Idx) : EReal :=
  ball (fun m k => x (ix2 (ballRow hR (i 0) m) k)) (fun m d => pos (ix2 (ballRow hR (i 0) m) d))
    (fun k j => wqkv (ix2 k j)) (fun j => bqkv (ix1 j)) (fun d k => wpe (ix2 d k)) (fun k => bpe (ix1 k))
    (fun k q => wproj (ix2 k q)) (fun q => bproj (ix1 q)) (fun h => sigma (ix4 0 h 0 0))
    ⟨(i 0).val % 32, Nat.mod_lt _ (by decide)⟩ (i 1)

end Cert.BallAttention

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Proj.lean ====
/-
  The first half of the kernel's body, read at an index: for a block of 64 balls (2048 rows), the rows of the fused
  projection.

  Row R of the block belongs to ball R / 32 as its point R % 32. The body centres each ball's positions on their
  mean (the sum over the ball's 32 points divided by 32), multiplies the three centred coordinates by the three rows
  of the embedding matrix and adds the products left to right, adds the result and a bias to the feature row, and
  multiplies by the 256-by-768 projection matrix, adding its bias. At entry (R, j) this is the specification's
  `project (embed …)` of the ball's rows.
-/
import proofs.«173495_j42880953483553_1_alg».proof.Proof.Chunk
import proofs.«173495_j42880953483553_1_alg».proof.Proof.Spec
import proofs.«173495_j42880953483553_1_alg».proof.Proof.LibPlainContract
import proofs.«173495_j42880953483553_1_alg».proof.Proof.LibLayout3
import proofs.«173495_j42880953483553_1_alg».proof.Proof.LibKeepdims
import Idealize.ShloMosaic.Lib.ValueLayout
import Idealize.ShloMosaic.PureOps.Ideal.Laws

noncomputable section

namespace Cert.KernelIdeal.Body

open Idealize.ShloMosaic Idealize.SL.Sem Idealize.ShloMosaic.ValueIdx Cert.KernelIdeal Cert.KernelIdeal.Gen Cert.BallAttention

/-! ## The stages as terms -/

section Terms
variable {F : FTy → Type} [FloatOps F]

/-- The positions minus their ball's mean, as 2048 rows. -/
def centred (v2 : FVec F S64x32x3 .f32) : FVec F S2048x3 .f32 :=
  shapeCast S2048x3 (subf v2 (broadcastTo S64x32x3
    (divf (shapeCast S64x1x3 (multiReduction .add [1] S64x3 v2 0x00000000#32 reduces_S64x32x3_S64x3 (.inl rfl) rfl) shapeCasts_S64x3_S64x1x3)
      (broadcast S64x1x3 (Scalar.ofBits .f32 0x42000000#32))) broadcasts_S64x1x3_S64x32x3)) shapeCasts_S64x32x3_S2048x3

/-- A column times a row, spread over the block. -/
def outer (a : FVec F S2048x1 .f32) (w : FVec F S1x256 .f32) : FVec F S2048x256 .f32 :=
  mulf (broadcastTo S2048x256 a broadcasts_S2048x1_S2048x256) (broadcastTo S2048x256 w broadcasts_S1x256_S2048x256)

/-- The feature rows with the embedded centred positions and the bias added. -/
def embedded (x0 : Vec F S2048x256 .f32) (v9 : FVec F S2048x3 .f32) (v10 : Vec F S3x256 .f32) (v29 : Vec F S1x256 .f32) : FVec F S2048x256 .f32 :=
  addf (addf x0 (addf (addf
      (outer (extractStridedSlice S2048x1 ![0, 0] v9 slices_S2048x3_o0_0_S2048x1) (extractStridedSlice S1x256 ![0, 0] v10 slices_S3x256_o0_0_S1x256))
      (outer (extractStridedSlice S2048x1 ![0, 1] v9 slices_S2048x3_o0_1_S2048x1) (extractStridedSlice S1x256 ![1, 0] v10 slices_S3x256_o1_0_S1x256)))
      (outer (extractStridedSlice S2048x1 ![0, 2] v9 slices_S2048x3_o0_2_S2048x1) (extractStridedSlice S1x256 ![2, 0] v10 slices_S3x256_o2_0_S1x256))))
    (broadcastTo S2048x256 (shapeCast S1x256 v29 shapeCasts_S1x256_S1x256) broadcasts_S1x256_S2048x256)

/-- The fused projection of the embedded rows. -/
def projected (v32 : FVec F S2048x256 .f32) (v34 : Vec F S256x768 .bf16) (v37 : Vec F S1x768 .f32) : FVec F S2048x768 .f32 :=
  addf (matmul dot_S2048x256_S256x768_S2048x768_1_0_0_1_n_n none (truncf .bf16 v32 bitsLt_bf16_f32)
      (shapeCast S256x768 v34 shapeCasts_S256x768_S256x768) (constant S2048x768 .f32 0x00000000#32))
    (broadcastTo S2048x768 (shapeCast S1x768 v37 shapeCasts_S1x768_S1x768) broadcasts_S1x768_S2048x768)

/-- The printed intermediate value is this composite. -/
theorem pay2_eq (v0 : Vec F S2048x256 .f32) (v1 : Vec F S2048x3 .f32) (v10 : Vec F S3x256 .f32) (v29 : Vec F S1x256 .f32)
    (v34 : Vec F S256x768 .bf16) (v37 : Vec F S1x768 .f32) :
    k0_pay2 v0 v1 v10 v29 v34 v37 = projected (embedded v0 (centred (k0_pay1 v1)) v10 v29) v34 v37 := rfl

end Terms

/-! ## Read at coordinates -/

/-- Row `R`'s ball and point. -/
abbrev ballOf (R : Fin 2048) : Fin 64 := ⟨R.val / 32, by have := R.isLt; omega⟩
abbrev pointOf {N : Nat} (R : Fin N) : Fin 32 := ⟨R.val % 32, Nat.mod_lt _ (by decide)⟩

/-- The block's positions per ball: point `m` of ball `n` is row n·32 + m. -/
theorem pay1_apply (x1 : Vec Ideal S2048x3 .f32) (n : Fin 64) (m : Fin 32) (d : Fin 3) :
    k0_pay1 (F := Ideal) x1 (ix3 n m d) = x1 (ix2 (⟨n.val * 32 + m.val, by have := n.isLt; have := m.isLt; omega⟩ : Fin 2048) d) :=
  Cert.LibLayout3.shapeCast_mc_abc_apply x1 shapeCasts_S2048x3_S64x32x3 n m d _ rfl

/-- The sum over a ball's points, read at (ball, coordinate). -/
theorem ballSum_apply (v2 : FVec Ideal S64x32x3 .f32) (n : Fin 64) (d : Fin 3) :
    multiReduction (F := Ideal) .add [1] S64x3 v2 0x00000000#32 reduces_S64x32x3_S64x3 (.inl rfl) rfl (ix2 n d)
      = ∑ k : Fin 32, v2 (ix3 n k d) := by
  refine (Ideal.multiReduction_add_single v2 0x00000000#32 reduces_S64x32x3_S64x3 (.inl rfl) rfl (ix2 n d)).trans ?_
  refine Finset.sum_congr rfl fun k _ => congrArg v2 ?_
  funext a; apply Fin.ext
  match a with
  | ⟨0, _⟩ => rfl
  | ⟨1, _⟩ => rfl
  | ⟨2, _⟩ => rfl

/-- The centred position of row `R`, coordinate `d`. -/
theorem centred_apply (v2 : FVec Ideal S64x32x3 .f32) (R : Fin 2048) (d : Fin 3) :
    centred (F := Ideal) v2 (ix2 R d)
      = v2 (ix3 (ballOf R) (pointOf R) d) - Ideal.div (∑ k : Fin 32, v2 (ix3 (ballOf R) k d)) c32 := by
  unfold centred
  refine (Cert.LibLayout3.shapeCast_abc_mc_apply _ shapeCasts_S64x32x3_S2048x3 (ballOf R) (pointOf R) d R
    (by show R.val = R.val / 32 * 32 + R.val % 32; omega)).trans ?_
  show v2 (ix3 (ballOf R) (pointOf R) d) - _ = _
  refine congrArg (v2 (ix3 (ballOf R) (pointOf R) d) - ·) ?_
  refine (Cert.LibLayout3.broadcastTo_a1c_abc_apply _ broadcasts_S64x1x3_S64x32x3 (ballOf R) (pointOf R) d).trans ?_
  show Ideal.div _ c32 = _
  refine congrArg (Ideal.div · c32) ?_
  refine (Cert.LibLayout3.shapeCast_ac_a1c_apply _ shapeCasts_S64x3_S64x1x3 (ballOf R) (0 : Fin 1) d).trans ?_
  exact ballSum_apply v2 (ballOf R) d

/-- A column times a row at an entry. -/
theorem outer_apply (a : FVec Ideal S2048x1 .f32) (w : FVec Ideal S1x256 .f32) (R : Fin 2048) (k : Fin 256) :
    outer (F := Ideal) a w (ix2 R k) = a (ix2 R (0 : Fin 1)) * w (ix2 (0 : Fin 1) k) := by
  unfold outer
  show broadcastTo S2048x256 a broadcasts_S2048x1_S2048x256 (ix2 R k) * broadcastTo S2048x256 w broadcasts_S1x256_S2048x256 (ix2 R k) = _
  rw [Cert.Lib.Keepdims.broadcastTo_a1_ab_apply a broadcasts_S2048x1_S2048x256 R k,
    broadcastTo_1b_ab_apply w broadcasts_S1x256_S2048x256 R k]

/-- The embedded row at an entry. -/
theorem embedded_apply (x0 : Vec Ideal S2048x256 .f32) (v9 : FVec Ideal S2048x3 .f32) (v10 : Vec Ideal S3x256 .f32) (v29 : Vec Ideal S1x256 .f32)
    (R : Fin 2048) (k : Fin 256) :
    embedded (F := Ideal) x0 v9 v10 v29 (ix2 R k)
      = x0 (ix2 R k) + (v9 (ix2 R 0) * v10 (ix2 0 k) + v9 (ix2 R 1) * v10 (ix2 1 k) + v9 (ix2 R 2) * v10 (ix2 2 k)) + v29 (ix2 (0 : Fin 1) k) := by
  unfold embedded
  show (x0 (ix2 R k) + ((outer (F := Ideal) _ _ (ix2 R k) + outer (F := Ideal) _ _ (ix2 R k)) + outer (F := Ideal) _ _ (ix2 R k))) + broadcastTo S2048x256 _ broadcasts_S1x256_S2048x256 (ix2 R k) = _
  rw [outer_apply, outer_apply, outer_apply, broadcastTo_1b_ab_apply _ broadcasts_S1x256_S2048x256 R k, shapeCast_self,
    slice2_axis1_apply 0 v9 slices_S2048x3_o0_0_S2048x1 R (0 : Fin 1) (0 : Fin 3) rfl,
    slice2_axis1_apply 1 v9 slices_S2048x3_o0_1_S2048x1 R (0 : Fin 1) (1 : Fin 3) rfl,
    slice2_axis1_apply 2 v9 slices_S2048x3_o0_2_S2048x1 R (0 : Fin 1) (2 : Fin 3) rfl,
    slice2_axis0_apply 0 v10 slices_S3x256_o0_0_S1x256 (0 : Fin 1) k (0 : Fin 3) rfl,
    slice2_axis0_apply 1 v10 slices_S3x256_o1_0_S1x256 (0 : Fin 1) k (1 : Fin 3) rfl,
    slice2_axis0_apply 2 v10 slices_S3x256_o2_0_S1x256 (0 : Fin 1) k (2 : Fin 3) rfl]

/-- The projection at an entry. -/
theorem projected_apply (v32 : FVec Ideal S2048x256 .f32) (v34 : FVec Ideal S256x768 .bf16) (v37 : Vec Ideal S1x768 .f32) (R : Fin 2048) (j : Fin 768) :
    projected (F := Ideal) v32 v34 v37 (ix2 R j) = (∑ k : Fin 256, v32 (ix2 R k) * v34 (ix2 k j)) + v37 (ix2 (0 : Fin 1) j) := by
  unfold projected
  show matmul dot_S2048x256_S256x768_S2048x768_1_0_0_1_n_n none _ _ (constant S2048x768 .f32 0x00000000#32) (ix2 R j)
      + broadcastTo S2048x768 _ broadcasts_S1x768_S2048x768 (ix2 R j) = _
  rw [broadcastTo_1b_ab_apply _ broadcasts_S1x768_S2048x768 R j, shapeCast_self, shapeCast_self]
  exact congrArg (· + v37 (ix2 (0 : Fin 1) j))
    (Cert.LibPlainContract.matmul_plain_apply 2048 256 768 none (truncf .bf16 v32 bitsLt_bf16_f32) v34 R j)

end Cert.KernelIdeal.Body

end
-- ==== Proof.ChunkDot.lean ====
/-
  The two batched matrix products of a chunk, read at one entry.

  Both act on 128 matrices of 32 by 32, one per (ball, head), with the leading axis as the batch axis. The first
  contracts the last axes of both operands: entry (B, m, k) is the sum over e of l[B, m, e] · r[B, k, e]. The second
  contracts the left operand's last axis with the right operand's middle axis: entry (B, m, e) is the sum over k of
  l[B, m, k] · r[B, k, e]. Each product is taken into a zero accumulator.
-/
import proofs.«173495_j42880953483553_1_alg».proof.Proof.Chunk
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.Body

open Idealize.ShloMosaic Idealize.ShloMosaic.ValueIdx Cert.KernelIdeal Cert.KernelIdeal.Gen

/-- The dimension numbers of the product of queries with keys, and of weights with values. -/
abbrev Dqk : DotDims S128x32x32 S128x32x32 S128x32x32 := dot_S128x32x32_S128x32x32_S128x32x32_2_2_1_1_0_0
abbrev Dav : DotDims S128x32x32 S128x32x32 S128x32x32 := dot_S128x32x32_S128x32x32_S128x32x32_2_1_1_2_0_0

/-! ## Queries with keys: the operand indices, axis by axis -/

theorem qk_lhs0 (i : S128x32x32.Idx) (q : Dqk.contr.Idx) : (Dqk.lhsIdx i q 0).val = (i 0).val := by
  unfold DotDims.lhsIdx
  rw [dif_pos (show (0 : Fin S128x32x32.rank) ∈ Dqk.lhsBatch by decide)]
  rfl
theorem qk_lhs1 (i : S128x32x32.Idx) (q : Dqk.contr.Idx) : (Dqk.lhsIdx i q 1).val = (i 1).val := by
  unfold DotDims.lhsIdx
  rw [dif_neg (show ¬(1 : Fin S128x32x32.rank) ∈ Dqk.lhsBatch by decide),
    dif_pos (show (1 : Fin S128x32x32.rank) ∈ Dqk.lhsNonContracting by decide)]
  rfl
theorem qk_lhs2 (i : S128x32x32.Idx) (q : Dqk.contr.Idx) : (Dqk.lhsIdx i q 2).val = (q ⟨0, by decide⟩).val :=
  Dqk.lhsIdx_val_of_single rfl i q
theorem qk_rhs0 (i : S128x32x32.Idx) (q : Dqk.contr.Idx) : (Dqk.rhsIdx i q 0).val = (i 0).val := by
  unfold DotDims.rhsIdx
  rw [dif_pos (show (0 : Fin S128x32x32.rank) ∈ Dqk.rhsBatch by decide)]
  rfl
theorem qk_rhs1 (i : S128x32x32.Idx) (q : Dqk.contr.Idx) : (Dqk.rhsIdx i q 1).val = (i 2).val := by
  unfold DotDims.rhsIdx
  rw [dif_neg (show ¬(1 : Fin S128x32x32.rank) ∈ Dqk.rhsBatch by decide),
    dif_pos (show (1 : Fin S128x32x32.rank) ∈ Dqk.rhsNonContracting by decide)]
  rfl
theorem qk_rhs2 (i : S128x32x32.Idx) (q : Dqk.contr.Idx) : (Dqk.rhsIdx i q 2).val = (q ⟨0, by decide⟩).val :=
  Dqk.rhsIdx_val_of_single rfl i q

/-- The product of queries with keys at (B, m, k): the sum over e of l[B, m, e] · r[B, k, e]. -/
theorem matmulQK_apply {φ₁ φ₂ : FTy} (l : FVec Ideal S128x32x32 φ₁) (r : FVec Ideal S128x32x32 φ₂)
    (B : Fin 128) (m k : Fin 32) :
    matmul Dqk none l r (constant (F := Ideal) S128x32x32 .f32 0x00000000#32) (ix3 B m k)
      = ∑ e : Fin 32, l (ix3 B m e) * r (ix3 B k e) := by
  refine (Ideal.matmul_constant_zero_apply Dqk none l r (ix3 B m k)).trans ?_
  rw [← Equiv.sum_comp (contrEquiv1 Dqk 32 rfl rfl).symm]
  refine Finset.sum_congr rfl fun e _ => ?_
  have hk := contrEquiv1_symm_val Dqk 32 rfl rfl e
  have el : Dqk.lhsIdx (ix3 B m k) ((contrEquiv1 Dqk 32 rfl rfl).symm e) = ix3 B m e := funext fun a => Fin.ext (by
    match a with
    | ⟨0, _⟩ => exact qk_lhs0 _ _
    | ⟨1, _⟩ => exact qk_lhs1 _ _
    | ⟨2, _⟩ => exact (qk_lhs2 _ _).trans hk)
  have er : Dqk.rhsIdx (ix3 B m k) ((contrEquiv1 Dqk 32 rfl rfl).symm e) = ix3 B k e := funext fun a => Fin.ext (by
    match a with
    | ⟨0, _⟩ => exact qk_rhs0 _ _
    | ⟨1, _⟩ => exact qk_rhs1 _ _
    | ⟨2, _⟩ => exact (qk_rhs2 _ _).trans hk)
  rw [el, er]

/-! ## Weights with values: the operand indices, axis by axis -/

theorem av_lhs0 (i : S128x32x32.Idx) (q : Dav.contr.Idx) : (Dav.lhsIdx i q 0).val = (i 0).val := by
  unfold DotDims.lhsIdx
  rw [dif_pos (show (0 : Fin S128x32x32.rank) ∈ Dav.lhsBatch by decide)]
  rfl
theorem av_lhs1 (i : S128x32x32.Idx) (q : Dav.contr.Idx) : (Dav.lhsIdx i q 1).val = (i 1).val := by
  unfold DotDims.lhsIdx
  rw [dif_neg (show ¬(1 : Fin S128x32x32.rank) ∈ Dav.lhsBatch by decide),
    dif_pos (show (1 : Fin S128x32x32.rank) ∈ Dav.lhsNonContracting by decide)]
  rfl
theorem av_lhs2 (i : S128x32x32.Idx) (q : Dav.contr.Idx) : (Dav.lhsIdx i q 2).val = (q ⟨0, by decide⟩).val :=
  Dav.lhsIdx_val_of_single rfl i q
theorem av_rhs0 (i : S128x32x32.Idx) (q : Dav.contr.Idx) : (Dav.rhsIdx i q 0).val = (i 0).val := by
  unfold DotDims.rhsIdx
  rw [dif_pos (show (0 : Fin S128x32x32.rank) ∈ Dav.rhsBatch by decide)]
  rfl
theorem av_rhs1 (i : S128x32x32.Idx) (q : Dav.contr.Idx) : (Dav.rhsIdx i q 1).val = (q ⟨0, by decide⟩).val :=
  Dav.rhsIdx_val_of_single rfl i q
theorem av_rhs2 (i : S128x32x32.Idx) (q : Dav.contr.Idx) : (Dav.rhsIdx i q 2).val = (i 2).val := by
  unfold DotDims.rhsIdx
  rw [dif_neg (show ¬(2 : Fin S128x32x32.rank) ∈ Dav.rhsBatch by decide),
    dif_pos (show (2 : Fin S128x32x32.rank) ∈ Dav.rhsNonContracting by decide)]
  rfl

/-- The product of weights with values at (B, m, e): the sum over k of l[B, m, k] · r[B, k, e]. -/
theorem matmulAV_apply {φ₁ φ₂ : FTy} (l : FVec Ideal S128x32x32 φ₁) (r : FVec Ideal S128x32x32 φ₂)
    (B : Fin 128) (m e : Fin 32) :
    matmul Dav none l r (constant (F := Ideal) S128x32x32 .f32 0x00000000#32) (ix3 B m e)
      = ∑ k : Fin 32, l (ix3 B m k) * r (ix3 B k e) := by
  refine (Ideal.matmul_constant_zero_apply Dav none l r (ix3 B m e)).trans ?_
  rw [← Equiv.sum_comp (contrEquiv1 Dav 32 rfl rfl).symm]
  refine Finset.sum_congr rfl fun k _ => ?_
  have hk := contrEquiv1_symm_val Dav 32 rfl rfl k
  have el : Dav.lhsIdx (ix3 B m e) ((contrEquiv1 Dav 32 rfl rfl).symm k) = ix3 B m k := funext fun a => Fin.ext (by
    match a with
    | ⟨0, _⟩ => exact av_lhs0 _ _
    | ⟨1, _⟩ => exact av_lhs1 _ _
    | ⟨2, _⟩ => exact (av_lhs2 _ _).trans hk)
  have er : Dav.rhsIdx (ix3 B m e) ((contrEquiv1 Dav 32 rfl rfl).symm k) = ix3 B k e := funext fun a => Fin.ext (by
    match a with
    | ⟨0, _⟩ => exact av_rhs0 _ _
    | ⟨1, _⟩ => exact (av_rhs1 _ _).trans hk
    | ⟨2, _⟩ => exact av_rhs2 _ _)
  rw [el, er]

end Cert.KernelIdeal.Body

end
-- ==== Proof.ChunkLayout.lean ====
/-
  The query, key and value parts of a chunk's projected rows, read at one entry.

  A chunk has 512 projected rows of 768 numbers: row b·32 + m belongs to point m of ball b, and column
  (h·32 + e)·3 + c holds coordinate e of head h of part c. Seen as [ball, point, head, coordinate, part], cut at one
  part, and re-laid as one 32-by-32 matrix per (ball, head) — matrix b·8 + h, row m, column e — each part's entry is the
  projected row's entry at that column.
-/
import proofs.«173495_j42880953483553_1_alg».proof.Proof.Chunk
import proofs.«173495_j42880953483553_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.Body

open Idealize.ShloMosaic Idealize.ShloMosaic.ValueIdx Cert.KernelIdeal Cert.KernelIdeal.Gen

open Cert.BallAttention (col hcol)

/-- The position of (ball, head) among the 128 matrices. -/
def bh (b : Fin 16) (h : Fin 8) : Fin 128 := ⟨b.val * 8 + h.val, by have := b.isLt; have := h.isLt; omega⟩

/-- The chunk's row that holds point m of ball b. -/
def row (b : Fin 16) (m : Fin 32) : Fin 512 := ⟨b.val * 32 + m.val, by have := b.isLt; have := m.isLt; omega⟩

/-- The projected rows seen as [ball, point, head, coordinate, part]. -/
theorem split5_apply (qc : Vec Ideal S512x768 .f32) (b : Fin 16) (m : Fin 32) (h : Fin 8) (e : Fin 32) (c : Fin 3) :
    split5 (F := Ideal) qc (ix5 b m h e c) = qc (ix2 (row b m) (col h e c)) := by
  unfold split5
  exact shapeCast_apply qc _ (ix5 b m h e c) (ix2 (row b m) (col h e c)) (by
    rw [Shape.rowMajor_val_two, Shape.rowMajor_val_five]
    show (b.val * 32 + m.val) * 768 + ((h.val * 32 + e.val) * 3 + c.val)
      = (((b.val * 32 + m.val) * 8 + h.val) * 32 + e.val) * 3 + c.val
    omega)

/-- From [ball, point, head, coordinate, 1] to one matrix per (ball, head): entry (b·8 + h, m, e) is entry
    (b, m, h, e, 0). -/
theorem perHead_apply (s : FVec Ideal S16x32x8x32x1 .f32) (b : Fin 16) (h : Fin 8) (m e : Fin 32) :
    perHead (F := Ideal) s (ix3 (bh b h) m e) = s (ix5 b m h e (0 : Fin 1)) := by
  unfold perHead
  refine Eq.trans (truncf_apply (ψ := .bf16) _ bitsLt_bf16_f32 (ix3 (bh b h) m e)) ?_
  refine (shapeCast_apply _ shapeCasts_S16x8x32x32_S128x32x32 (ix3 (bh b h) m e) (ix4 b h m e) (by
    rw [Shape.rowMajor_val_four, Shape.rowMajor_val_three]
    rfl)).trans ?_
  refine (transpose_apply _ _ transposes_S16x32x8x32_p0_2_1_3_S16x8x32x32 (ix4 b h m e) (ix4 b m h e)
    (fun c => match c with | ⟨0, _⟩ => rfl | ⟨1, _⟩ => rfl | ⟨2, _⟩ => rfl | ⟨3, _⟩ => rfl)).trans ?_
  exact shapeCast_apply s shapeCasts_S16x32x8x32x1_S16x32x8x32 (ix4 b m h e) (ix5 b m h e (0 : Fin 1)) (by
    rw [Shape.rowMajor_val_five, Shape.rowMajor_val_four]
    show (((b.val * 32 + m.val) * 8 + h.val) * 32 + e.val) * 1 + 0 = ((b.val * 32 + m.val) * 8 + h.val) * 32 + e.val
    omega)

/-- The query part: entry (b·8 + h, m, e) is the projected row of point m of ball b at the query column of (h, e). -/
theorem part0_apply (qc : Vec Ideal S512x768 .f32) (b : Fin 16) (h : Fin 8) (m e : Fin 32) :
    part0 (F := Ideal) qc (ix3 (bh b h) m e) = qc (ix2 (row b m) (col h e 0)) := by
  unfold part0
  refine (perHead_apply _ b h m e).trans ?_
  refine (slice5_axis4_apply 0 _ slices_S16x32x8x32x3_o0_0_0_0_0_S16x32x8x32x1 b m h e (0 : Fin 1) (0 : Fin 3) rfl).trans ?_
  exact split5_apply qc b m h e 0

/-- The key part. -/
theorem part1_apply (qc : Vec Ideal S512x768 .f32) (b : Fin 16) (h : Fin 8) (m e : Fin 32) :
    part1 (F := Ideal) qc (ix3 (bh b h) m e) = qc (ix2 (row b m) (col h e 1)) := by
  unfold part1
  refine (perHead_apply _ b h m e).trans ?_
  refine (slice5_axis4_apply 1 _ slices_S16x32x8x32x3_o0_0_0_0_1_S16x32x8x32x1 b m h e (0 : Fin 1) (1 : Fin 3) rfl).trans ?_
  exact split5_apply qc b m h e 1

/-- The value part. -/
theorem part2_apply (qc : Vec Ideal S512x768 .f32) (b : Fin 16) (h : Fin 8) (m e : Fin 32) :
    part2 (F := Ideal) qc (ix3 (bh b h) m e) = qc (ix2 (row b m) (col h e 2)) := by
  unfold part2
  refine (perHead_apply _ b h m e).trans ?_
  refine (slice5_axis4_apply 2 _ slices_S16x32x8x32x3_o0_0_0_0_2_S16x32x8x32x1 b m h e (0 : Fin 1) (2 : Fin 3) rfl).trans ?_
  exact split5_apply qc b m h e 2

end Cert.KernelIdeal.Body

end
-- ==== Proof.ChunkBias.lean ====
/-
  The squared distances inside a ball and the bias they give, read at one entry.

  The positions of a chunk are [ball, point, coordinate]. The squared distance of points m and k of ball b is the sum
  over the three coordinates d of the square of p[b, m, d] − p[b, k, d]: the positions are spread along a new axis once
  as rows and once as columns, subtracted, squared and summed over d. The bias of (ball b, head h) at (m, k) is the
  square root of the larger of that squared distance and a floor, times the head's coefficient.
-/
import proofs.«173495_j42880953483553_1_alg».proof.Proof.Chunk
import proofs.«173495_j42880953483553_1_alg».proof.Proof.ChunkLayout
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.Body

open Idealize.ShloMosaic Idealize.ShloMosaic.ValueIdx Cert.KernelIdeal Cert.KernelIdeal.Gen

/-- Over a [16, 32, 32, 3] array summed along its last axis, the source index over (b, m, k) with last coordinate d
    inserted is (b, m, k, d). -/
theorem lift_ix3_last (b : Fin 16) (m k : Fin 32) (d : Fin 3) :
    reduces_S16x32x32x3_S16x32x32.lift (ix3 b m k) d = ix4 b m k d := by
  funext a
  match a with
  | ⟨0, _⟩ => rfl
  | ⟨1, _⟩ => rfl
  | ⟨2, _⟩ => rfl
  | ⟨3, _⟩ => rfl

/-- The positions spread over the columns: entry (b, m, k, d) is p[b, m, d]. -/
theorem spreadRows_apply (p : FVec Ideal S16x32x3 .f32) (b : Fin 16) (m k : Fin 32) (d : Fin 3) :
    broadcastTo S16x32x32x3 (shapeCast S16x32x1x3 p shapeCasts_S16x32x3_S16x32x1x3) broadcasts_S16x32x1x3_S16x32x32x3
      (ix4 b m k d) = p (ix3 b m d) := by
  refine (broadcastTo_apply _ broadcasts_S16x32x1x3_S16x32x32x3 (ix4 b m k d) (ix4 b m (0 : Fin 1) d) (fun a => by
    match a with
    | ⟨0, _⟩ => rfl
    | ⟨1, _⟩ => rfl
    | ⟨2, _⟩ => rfl
    | ⟨3, _⟩ => rfl)).trans ?_
  exact shapeCast_apply p shapeCasts_S16x32x3_S16x32x1x3 (ix4 b m (0 : Fin 1) d) (ix3 b m d) (by
    rw [Shape.rowMajor_val_three, Shape.rowMajor_val_four]
    show (b.val * 32 + m.val) * 3 + d.val = ((b.val * 32 + m.val) * 1 + 0) * 3 + d.val
    omega)

/-- The positions spread over the rows: entry (b, m, k, d) is p[b, k, d]. -/
theorem spreadCols_apply (p : FVec Ideal S16x32x3 .f32) (b : Fin 16) (m k : Fin 32) (d : Fin 3) :
    broadcastTo S16x32x32x3 (shapeCast S16x1x32x3 p shapeCasts_S16x32x3_S16x1x32x3) broadcasts_S16x1x32x3_S16x32x32x3
      (ix4 b m k d) = p (ix3 b k d) := by
  refine (broadcastTo_apply _ broadcasts_S16x1x32x3_S16x32x32x3 (ix4 b m k d) (ix4 b (0 : Fin 1) k d) (fun a => by
    match a with
    | ⟨0, _⟩ => rfl
    | ⟨1, _⟩ => rfl
    | ⟨2, _⟩ => rfl
    | ⟨3, _⟩ => rfl)).trans ?_
  exact shapeCast_apply p shapeCasts_S16x32x3_S16x1x32x3 (ix4 b (0 : Fin 1) k d) (ix3 b k d) (by
    rw [Shape.rowMajor_val_three, Shape.rowMajor_val_four]
    show (b.val * 32 + k.val) * 3 + d.val = ((b.val * 1 + 0) * 32 + k.val) * 3 + d.val
    omega)

/-- The squared distance of points m and k of ball b. -/
theorem sqDist_apply (p : FVec Ideal S16x32x3 .f32) (b : Fin 16) (m k : Fin 32) :
    sqDist (F := Ideal) p (ix3 b m k)
      = ∑ d : Fin 3, (p (ix3 b m d) - p (ix3 b k d)) * (p (ix3 b m d) - p (ix3 b k d)) := by
  unfold sqDist
  refine (Ideal.multiReduction_add_single _ _ reduces_S16x32x32x3_S16x32x32 _ _ (ix3 b m k)).trans ?_
  refine Finset.sum_congr rfl fun d _ => ?_
  rw [lift_ix3_last b m k d]
  show (_ - _) * (_ - _) = _
  rw [spreadRows_apply p b m k d, spreadCols_apply p b m k d]

/-- The bias of (ball b, head h) at (m, k): the floored distance times the head's coefficient. -/
theorem bias_apply (d2 : FVec Ideal S16x32x32 .f32) (eps : EReal) (sg : Vec Ideal S1x8x1x1 .f32)
    (b : Fin 16) (h : Fin 8) (m k : Fin 32) :
    bias (F := Ideal) d2 eps sg (ix3 (bh b h) m k)
      = Ideal.sqrt (max (d2 (ix3 b m k)) eps) * sg (ix4 (0 : Fin 1) h (0 : Fin 1) (0 : Fin 1)) := by
  unfold bias
  refine (shapeCast_apply _ shapeCasts_S16x8x32x32_S128x32x32 (ix3 (bh b h) m k) (ix4 b h m k) (by
    rw [Shape.rowMajor_val_four, Shape.rowMajor_val_three]
    rfl)).trans ?_
  refine (mulf_apply _ _ _).trans ?_
  refine congrArg₂ (· * ·) ?_ ?_
  · refine (broadcastTo_apply _ broadcasts_S16x1x32x32_S16x8x32x32 (ix4 b h m k) (ix4 b (0 : Fin 1) m k) (fun a => by
      match a with
      | ⟨0, _⟩ => rfl
      | ⟨1, _⟩ => rfl
      | ⟨2, _⟩ => rfl
      | ⟨3, _⟩ => rfl)).trans ?_
    exact shapeCast_apply _ shapeCasts_S16x32x32_S16x1x32x32 (ix4 b (0 : Fin 1) m k) (ix3 b m k) (by
      rw [Shape.rowMajor_val_three, Shape.rowMajor_val_four]
      show (b.val * 32 + m.val) * 32 + k.val = ((b.val * 1 + 0) * 32 + m.val) * 32 + k.val
      omega)
  · exact broadcastTo_apply sg broadcasts_S1x8x1x1_S16x8x32x32 (ix4 b h m k) (ix4 (0 : Fin 1) h (0 : Fin 1) (0 : Fin 1)) (fun a => by
      match a with
      | ⟨0, _⟩ => rfl
      | ⟨1, _⟩ => rfl
      | ⟨2, _⟩ => rfl
      | ⟨3, _⟩ => rfl)

end Cert.KernelIdeal.Body

end
-- ==== Proof.ChunkSoft.lean ====
/-
  The exponentials of a row of scores and their normalisation, read at one entry.

  For each of the 128 (ball, head) matrices and each row m: the row's top is the maximum of minus infinity and the fold
  of max from minus infinity over the row; the exponential is taken of each score minus the top; the normalised weight is
  the exponential divided by the row's sum of exponentials. The top and the sum are taken over the last axis, kept as a
  unit axis, and spread back over the row.
-/
import proofs.«173495_j42880953483553_1_alg».proof.Proof.Chunk
import proofs.«173495_j42880953483553_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.Body

open Idealize.ShloMosaic Idealize.ShloMosaic.ValueIdx Cert.KernelIdeal Cert.KernelIdeal.Gen

open Cert.BallAttention (bot)

/-- Over a [128, 32, 32] array reduced along its last axis, the source index over (B, m) with last coordinate k
    inserted is (B, m, k). -/
theorem lift_ix2_last (B : Fin 128) (m k : Fin 32) :
    reduces_S128x32x32_S128x32.lift (ix2 B m) k = ix3 B m k := by
  funext a
  match a with
  | ⟨0, _⟩ => rfl
  | ⟨1, _⟩ => rfl
  | ⟨2, _⟩ => rfl

/-- One value per row, kept as a unit last axis and spread back over the row: entry (B, m, k) is the value of row
    (B, m). -/
theorem spreadRowValue_apply (v : FVec Ideal S128x32 .f32) (B : Fin 128) (m k : Fin 32) :
    broadcastTo S128x32x32 (shapeCast S128x32x1 v shapeCasts_S128x32_S128x32x1) broadcasts_S128x32x1_S128x32x32
      (ix3 B m k) = v (ix2 B m) := by
  refine (broadcastTo_apply _ broadcasts_S128x32x1_S128x32x32 (ix3 B m k) (ix3 B m (0 : Fin 1)) (fun a => by
    match a with
    | ⟨0, _⟩ => rfl
    | ⟨1, _⟩ => rfl
    | ⟨2, _⟩ => rfl)).trans ?_
  exact shapeCast_apply v shapeCasts_S128x32_S128x32x1 (ix3 B m (0 : Fin 1)) (ix2 B m) (by
    rw [Shape.rowMajor_val_two, Shape.rowMajor_val_three]
    show B.val * 32 + m.val = (B.val * 32 + m.val) * 1 + 0
    omega)

/-- The row's fold of max from minus infinity. -/
theorem rowMax_apply (s : FVec Ideal S128x32x32 .f32) (B : Fin 128) (m : Fin 32) :
    multiReduction (F := Ideal) .maximumf [2] S128x32 s 0xFF800000#32 reduces_S128x32x32_S128x32 (.inl rfl) rfl (ix2 B m)
      = (Finset.univ : Finset (Fin 32)).fold max bot (fun k => s (ix3 B m k)) := by
  refine (Ideal.multiReduction_maximumf_single s _ reduces_S128x32x32_S128x32 _ _ (ix2 B m)).trans ?_
  have e : (s ∘ reduces_S128x32x32_S128x32.lift (ix2 B m)) = fun k : Fin 32 => s (ix3 B m k) :=
    funext fun k => congrArg s (lift_ix2_last B m k)
  rw [e]
  rfl

/-- The row's sum. -/
theorem rowSum_apply (s : FVec Ideal S128x32x32 .f32) (B : Fin 128) (m : Fin 32) :
    multiReduction (F := Ideal) .add [2] S128x32 s 0x00000000#32 reduces_S128x32x32_S128x32 (.inl rfl) rfl (ix2 B m)
      = ∑ k : Fin 32, s (ix3 B m k) := by
  refine (Ideal.multiReduction_add_single s _ reduces_S128x32x32_S128x32 _ _ (ix2 B m)).trans ?_
  exact Finset.sum_congr rfl fun k _ => congrArg s (lift_ix2_last B m k)

/-- The exponential of a score minus its row's top. -/
theorem expd_apply (s : FVec Ideal S128x32x32 .f32) (B : Fin 128) (m k : Fin 32) :
    expd (F := Ideal) s (ix3 B m k)
      = Ideal.exp (s (ix3 B m k) - max bot ((Finset.univ : Finset (Fin 32)).fold max bot (fun k' => s (ix3 B m k')))) := by
  unfold expd
  show Ideal.exp (s (ix3 B m k) - broadcastTo S128x32x32 _ broadcasts_S128x32x1_S128x32x32 (ix3 B m k)) = _
  refine congrArg (fun t => Ideal.exp (s (ix3 B m k) - t)) ?_
  refine (spreadRowValue_apply _ B m k).trans ?_
  refine Eq.trans (maximumf_apply _ _ (ix2 B m)) ?_
  exact congrArg (max bot) (rowMax_apply s B m)

/-- The exponential divided by its row's sum. -/
theorem normd_apply (x : FVec Ideal S128x32x32 .f32) (B : Fin 128) (m k : Fin 32) :
    normd (F := Ideal) x (ix3 B m k) = Ideal.div (x (ix3 B m k)) (∑ k' : Fin 32, x (ix3 B m k')) := by
  unfold normd
  refine Eq.trans (truncf_apply (ψ := .bf16) _ bitsLt_bf16_f32 (ix3 B m k)) ?_
  refine Eq.trans (divf_apply _ _ (ix3 B m k)) ?_
  refine congrArg (Ideal.div (x (ix3 B m k))) ?_
  refine (spreadRowValue_apply _ B m k).trans ?_
  exact rowSum_apply x B m

end Cert.KernelIdeal.Body

end
-- ==== Proof.ChunkOut.lean ====
/-
  A chunk of the body is ball attention, entry by entry.

  Row b·32 + m of a chunk's output, column h·32 + e, is the weighted sum over the points k of ball b of the value of
  k at (h, e), the weights being the normalised exponentials of the scores of m against k under head h: the scaled
  product of m's query with k's key plus the floored distance of the two points times the head's coefficient. Each
  stage of the chunk is read at explicit coordinates (ball b, head h, points m and k, coordinate e) and matched with
  the corresponding function of the specification, taken on ball b's positions, projected rows and the heads'
  coefficients.
-/
import proofs.«173495_j42880953483553_1_alg».proof.Proof.Chunk
import proofs.«173495_j42880953483553_1_alg».proof.Proof.Spec
import proofs.«173495_j42880953483553_1_alg».proof.Proof.ChunkDot
import proofs.«173495_j42880953483553_1_alg».proof.Proof.ChunkLayout
import proofs.«173495_j42880953483553_1_alg».proof.Proof.ChunkBias
import proofs.«173495_j42880953483553_1_alg».proof.Proof.ChunkSoft
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.Body

open Idealize.ShloMosaic Idealize.ShloMosaic.ValueIdx Cert.KernelIdeal Cert.KernelIdeal.Gen

open Cert.BallAttention (tiny scale bot col hcol score top weight attn mixed heads)

/-- Ball b's positions, its projected rows, and the heads' coefficients, as the specification takes them. -/
abbrev ballP (p : FVec Ideal S16x32x3 .f32) (b : Fin 16) : Fin 32 → Fin 3 → EReal := fun m d => p (ix3 b m d)
abbrev ballQ (qc : Vec Ideal S512x768 .f32) (b : Fin 16) : Fin 32 → Fin 768 → EReal := fun m j => qc (ix2 (row b m) j)
abbrev coef (sg : Vec Ideal S1x8x1x1 .f32) : Fin 8 → EReal := fun h => sg (ix4 (0 : Fin 1) h (0 : Fin 1) (0 : Fin 1))

/-- The scores of a chunk: the scaled query-key products plus the bias. -/
abbrev scores (qc : Vec Ideal S512x768 .f32) (p : FVec Ideal S16x32x3 .f32) (sg : Vec Ideal S1x8x1x1 .f32) :
    FVec Ideal S128x32x32 .f32 :=
  addf (scaled (F := Ideal) (part0 qc) (part1 qc)) (bias (F := Ideal) (sqDist p) tiny sg)

/-- The scaled product at (B, m, k): the dot product of row m of the first operand with row k of the second, times
    the scale. -/
theorem scaled_apply (x y : FVec Ideal S128x32x32 .bf16) (B : Fin 128) (m k : Fin 32) :
    scaled (F := Ideal) x y (ix3 B m k) = (∑ e : Fin 32, x (ix3 B m e) * y (ix3 B k e)) * scale := by
  unfold scaled
  refine Eq.trans (mulf_apply _ _ (ix3 B m k)) ?_
  exact congrArg (· * scale) (matmulQK_apply x y B m k)

/-- The weighted sums re-laid as rows: row b·32 + m, column h·32 + e is the sum over k of a[b·8 + h, m, k] ·
    v[b·8 + h, k, e]. -/
theorem gathered_apply (a v : FVec Ideal S128x32x32 .bf16) (b : Fin 16) (h : Fin 8) (m e : Fin 32) :
    gathered (F := Ideal) a v (ix2 (row b m) (hcol h e))
      = ∑ k : Fin 32, a (ix3 (bh b h) m k) * v (ix3 (bh b h) k e) := by
  unfold gathered
  refine (shapeCast_apply _ shapeCasts_S512x256_S512x256 (ix2 (row b m) (hcol h e)) (ix2 (row b m) (hcol h e)) rfl).trans ?_
  refine (shapeCast_apply _ shapeCasts_S16x32x8x32_S512x256 (ix2 (row b m) (hcol h e)) (ix4 b m h e) (by
    rw [Shape.rowMajor_val_four, Shape.rowMajor_val_two]
    show ((b.val * 32 + m.val) * 8 + h.val) * 32 + e.val = (b.val * 32 + m.val) * 256 + (h.val * 32 + e.val)
    omega)).trans ?_
  refine (transpose_apply _ _ transposes_S16x8x32x32_p0_2_1_3_S16x32x8x32 (ix4 b m h e) (ix4 b h m e)
    (fun c => match c with | ⟨0, _⟩ => rfl | ⟨1, _⟩ => rfl | ⟨2, _⟩ => rfl | ⟨3, _⟩ => rfl)).trans ?_
  refine (shapeCast_apply _ shapeCasts_S128x32x32_S16x8x32x32 (ix4 b h m e) (ix3 (bh b h) m e) (by
    rw [Shape.rowMajor_val_three, Shape.rowMajor_val_four]
    rfl)).trans ?_
  exact matmulAV_apply a v (bh b h) m e

section Ball

variable (qc : Vec Ideal S512x768 .f32) (p : FVec Ideal S16x32x3 .f32) (sg : Vec Ideal S1x8x1x1 .f32)
  (b : Fin 16) (h : Fin 8) (m : Fin 32)

/-- The score of m against k under head h. -/
theorem score_eq (k : Fin 32) :
    scores qc p sg (ix3 (bh b h) m k) = score (ballP p b) (ballQ qc b) (coef sg) h m k := by
  refine Eq.trans (addf_apply _ _ (ix3 (bh b h) m k)) ?_
  unfold score
  refine congrArg₂ (· + ·) ?_ ?_
  · refine (scaled_apply _ _ (bh b h) m k).trans ?_
    refine congrArg (· * scale) ?_
    exact Finset.sum_congr rfl fun e _ => by rw [part0_apply qc b h m e, part1_apply qc b h k e]
  · refine (bias_apply _ tiny sg b h m k).trans ?_
    refine congrArg (· * coef sg h) ?_
    unfold Cert.BallAttention.dist
    exact congrArg (fun t => Ideal.sqrt (max t tiny)) (sqDist_apply p b m k)

/-- The unnormalised weight. -/
theorem weight_eq (k : Fin 32) :
    expd (F := Ideal) (scores qc p sg) (ix3 (bh b h) m k) = weight (ballP p b) (ballQ qc b) (coef sg) h m k := by
  refine (expd_apply _ (bh b h) m k).trans ?_
  unfold weight top
  refine congrArg₂ (fun x t => Ideal.exp (x - max bot t)) (score_eq qc p sg b h m k) ?_
  exact congrArg ((Finset.univ : Finset (Fin 32)).fold max bot) (funext fun k' => score_eq qc p sg b h m k')

/-- The attention weight. -/
theorem attn_eq (k : Fin 32) :
    normd (F := Ideal) (expd (F := Ideal) (scores qc p sg)) (ix3 (bh b h) m k)
      = attn (ballP p b) (ballQ qc b) (coef sg) h m k := by
  refine (normd_apply _ (bh b h) m k).trans ?_
  unfold attn
  refine congrArg₂ Ideal.div (weight_eq qc p sg b h m k) ?_
  exact Finset.sum_congr rfl fun k' _ => weight_eq qc p sg b h m k'

/-- The chunk's output at row b·32 + m, column h·32 + e: head h's output at point m, coordinate e. -/
theorem chunkOut_at (e : Fin 32) :
    chunkOut (F := Ideal) qc p tiny sg (ix2 (row b m) (hcol h e))
      = mixed (ballP p b) (ballQ qc b) (coef sg) m h e := by
  refine (gathered_apply _ _ b h m e).trans ?_
  unfold mixed
  exact Finset.sum_congr rfl fun k _ => by rw [attn_eq qc p sg b h m k, part2_apply qc b h k e]

end Ball

/-- A chunk's output at row r, column q: the heads' outputs side by side, for the ball r / 32 at its point r % 32. -/
theorem chunkOut_apply (qc : Vec Ideal S512x768 .f32) (p : FVec Ideal S16x32x3 .f32) (sg : Vec Ideal S1x8x1x1 .f32)
    (r : Fin 512) (q : Fin 256) :
    chunkOut (F := Ideal) qc p Cert.BallAttention.tiny sg (ix2 r q)
      = Cert.BallAttention.heads
          (fun m d => p (ix3 (⟨r.val / 32, by have := r.isLt; omega⟩ : Fin 16) m d))
          (fun m j => qc (ix2 (⟨r.val / 32 * 32 + m.val, by have := r.isLt; have := m.isLt; omega⟩ : Fin 512) j))
          (fun h => sg (ix4 (0 : Fin 1) h (0 : Fin 1) (0 : Fin 1)))
          ⟨r.val % 32, Nat.mod_lt _ (by decide)⟩ q := by
  have hr : r = row ⟨r.val / 32, by have := r.isLt; omega⟩ ⟨r.val % 32, Nat.mod_lt _ (by decide)⟩ :=
    Fin.ext (by show r.val = r.val / 32 * 32 + r.val % 32; omega)
  have hq : q = hcol ⟨q.val / 32, by have := q.isLt; omega⟩ ⟨q.val % 32, Nat.mod_lt _ (by decide)⟩ :=
    Fin.ext (by show q.val = q.val / 32 * 32 + q.val % 32; omega)
  refine Eq.trans (congrArg₂ (fun r' q' => chunkOut (F := Ideal) qc p tiny sg (ix2 r' q')) hr hq) ?_
  exact chunkOut_at qc p sg ⟨r.val / 32, by have := r.isLt; omega⟩ ⟨q.val / 32, by have := q.isLt; omega⟩
    ⟨r.val % 32, Nat.mod_lt _ (by decide)⟩ ⟨q.val % 32, Nat.mod_lt _ (by decide)⟩

end Cert.KernelIdeal.Body

end
-- ==== Proof.Block.lean ====
/-
  What one grid point writes back, as a function of its input blocks: the specification's ball attention of the
  block's 64 balls.

  The body stores the 2048 projected rows in a first buffer, reads them back 512 rows at a time, writes each chunk's
  512 output rows into a second buffer, reads that buffer back whole, and sends it through the output projection.
  A 512-row read-back of a buffer one store filled whole is a range of rows of what was stored; the second buffer,
  filled by four stores of 512 rows each, reads back as ONE function of the row (each store's rows are that function's
  rows), namely the heads' outputs of the row's ball; and the output projection of that function is the
  specification's last step.
-/
import proofs.«173495_j42880953483553_1_alg».proof.Proof.Gen.KernelIdeal.Frame
import proofs.«173495_j42880953483553_1_alg».proof.Proof.Proj
import proofs.«173495_j42880953483553_1_alg».proof.Proof.ChunkOut
import Idealize.ShloMosaic.Lib.Pipeline.Value
import Idealize.ShloMosaic.Lib.Pipeline.RowLoads
import Idealize.ShloMosaic.Lib.Tactic

set_option maxRecDepth 16384

noncomputable section

namespace Cert.KernelIdeal.Body

open Idealize.ShloMosaic Idealize.ShloMosaic.TcCoe Idealize.SL.Sem Idealize.ShloMosaic.ValueIdx
open Cert.KernelIdeal Cert.KernelIdeal.Gen Cert.BallAttention

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Reading the two buffers back -/

/-- A load of `k` rows from row `o` of a buffer that one store filled whole reads those rows of what was stored. -/
theorem readCov_whole_rows {Val : EltTy → Type} [∀ e, Nonempty (Val e)] {sig : RefSig} {κ : Kind} {sp : Space} {e : EltTy}
    {m n k : Nat} (v : View sig κ sp (⟨2, ![m, n]⟩ : Shape) e) (P : (⟨2, ![m, n]⟩ : Shape).Idx → Val e)
    (inbP : ∀ a, (![0, 0] : Fin 2 → Nat) a + (⟨2, ![m, n]⟩ : Shape).size a ≤ (⟨2, ![m, n]⟩ : Shape).size a)
    (o : Nat)
    (inb' : ∀ a, (![o, 0] : Fin 2 → Nat) a + (⟨2, ![k, n]⟩ : Shape).size a ≤ (⟨2, ![m, n]⟩ : Shape).size a) :
    v.readCov [(⟨Rect.unit (s := (⟨2, ![m, n]⟩ : Shape)) ![0, 0] (⟨2, ![m, n]⟩ : Shape).size inbP, P⟩ : View.Piece Val (⟨2, ![m, n]⟩ : Shape) e)]
      (Rect.unit (s := (⟨2, ![m, n]⟩ : Shape)) ![o, 0] (⟨2, ![k, n]⟩ : Shape).size inb').toLoadRect
      = RowLoads.rowsFrom k P o (inb' 0) := by
  rw [View.readCov_eq_canon', View.canon_unit_zero hz2]
  funext j
  unfold RowLoads.rowsFrom
  refine congrArg P ?_
  funext a; apply Fin.ext
  fin_cases a
  · show o + 1 * (j 0).val = o + (j 0).val; omega
  · show 0 + 1 * (j 1).val = (j 1).val; omega

/-- A load of a whole buffer reads the canonical contents of whatever stores filled it. -/
theorem readCov_all {Val : EltTy → Type} [∀ e, Nonempty (Val e)] {sig : RefSig} {κ : Kind} {sp : Space} {e : EltTy} {S : Shape}
    (v : View sig κ sp S e) {off : Fin S.rank → Nat} (h : off = fun _ => 0) (inb : ∀ a, off a + S.size a ≤ S.size a)
    (L : List (View.Piece Val S e)) :
    v.readCov L (Rect.unit off S.size inb).toLoadRect = View.canon L := by
  subst h
  rw [View.readCov_eq_canon']
  funext j
  show View.canon L ((Rect.whole S).emb j) = _
  rw [Rect.emb_whole_apply]

/-! ## The block's rows through the specification -/

section Block

variable (x0 : Vec Ideal S2048x256 .f32) (x1 : Vec Ideal S2048x3 .f32) (x2 : FVec Ideal S256x768 .bf16) (x3 : Vec Ideal S1x768 .f32)
  (x4 : Vec Ideal S3x256 .f32) (x5 : Vec Ideal S1x256 .f32) (x6 : FVec Ideal S256x256 .bf16) (x7 : Vec Ideal S1x256 .f32)
  (x8 : Vec Ideal S1x8x1x1 .f32)

theorem h2048 : 2048 % 32 = 0 := by decide

/-- The feature rows and positions of the ball that holds row `R`, the projected rows of that ball, the heads'
    coefficients. -/
def bX (R : Fin 2048) (m : Fin 32) (k : Fin 256) : EReal := x0 (ix2 (ballRow h2048 R m) k)
def bP (R : Fin 2048) (m : Fin 32) (d : Fin 3) : EReal := x1 (ix2 (ballRow h2048 R m) d)
def bQ (R : Fin 2048) : Fin 32 → Fin 768 → EReal :=
  project (embed (bP x1 R) (bX x0 R) (fun d k => x4 (ix2 d k)) (fun k => x5 (ix2 (0 : Fin 1) k)))
    (fun k j => x2 (ix2 k j)) (fun j => x3 (ix2 (0 : Fin 1) j))
def bS (h : Fin 8) : EReal := x8 (ix4 (0 : Fin 1) h (0 : Fin 1) (0 : Fin 1))

/-- The heads' outputs side by side, for every row of the block. -/
def attnBlock : S2048x256.Idx → EReal := fun y =>
  heads (bP x1 (y 0)) (bQ x0 x1 x2 x3 x4 x5 (y 0)) (bS x8) (pointOf (y 0)) (y 1)

/-- The block's result rows. -/
def blockResult : S2048x256.Idx → EReal := fun y =>
  ball (bX x0 (y 0)) (bP x1 (y 0)) (fun k j => x2 (ix2 k j)) (fun j => x3 (ix2 (0 : Fin 1) j)) (fun d k => x4 (ix2 d k))
    (fun k => x5 (ix2 (0 : Fin 1) k)) (fun k q => x6 (ix2 k q)) (fun q => x7 (ix2 (0 : Fin 1) q)) (bS x8) (pointOf (y 0)) (y 1)

theorem ballRow_pointOf (R : Fin 2048) : ballRow h2048 R (pointOf R) = R :=
  Fin.ext (by show R.val / 32 * 32 + R.val % 32 = R.val; omega)

/-- The projected rows of the block are the specification's, ball by ball. -/
theorem qkv_apply (R : Fin 2048) (j : Fin 768) :
    k0_pay2 (F := Ideal) x0 x1 x4 x5 x2 x3 (ix2 R j) = bQ x0 x1 x2 x3 x4 x5 R (pointOf R) j := by
  rw [pay2_eq, projected_apply]
  unfold bQ project
  refine congrArg (· + x3 (ix2 (0 : Fin 1) j)) (Finset.sum_congr rfl fun k _ => congrArg (· * x2 (ix2 k j)) ?_)
  rw [embedded_apply, centred_apply, centred_apply, centred_apply]
  simp only [pay1_apply]
  unfold embed rel centre bP bX
  have hx : x0 (ix2 R k) = x0 (ix2 (ballRow h2048 R (pointOf R)) k) := by rw [ballRow_pointOf]
  rw [hx]
  rfl

end Block

/-! ## The chunks' rows -/

/-- A rank-3 array cut along its first axis from `o` reads, at (j, b, c), the source at (o + j, b, c). -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

section Block2

variable (x0 : Vec Ideal S2048x256 .f32) (x1 : Vec Ideal S2048x3 .f32) (x2 : FVec Ideal S256x768 .bf16) (x3 : Vec Ideal S1x768 .f32)
  (x4 : Vec Ideal S3x256 .f32) (x5 : Vec Ideal S1x256 .f32) (x6 : FVec Ideal S256x256 .bf16) (x7 : Vec Ideal S1x256 .f32)
  (x8 : Vec Ideal S1x8x1x1 .f32)

/-- The positions of the 16 balls from ball `o` on. -/
theorem chunkBalls_apply (o : Nat) (ho : o + 16 ≤ 64) (h : S64x32x3.Slices ![o, 0, 0] S16x32x3) (b : Fin 16) (m : Fin 32) (d : Fin 3) :
    extractStridedSlice S16x32x3 ![o, 0, 0] (k0_pay1 (F := Ideal) x1) h (ix3 b m d)
      = x1 (ix2 (⟨(o + b.val) * 32 + m.val, by have := b.isLt; have := m.isLt; omega⟩ : Fin 2048) d) := by
  rw [slice3_axis0_apply o _ h b m d (⟨o + b.val, by have := b.isLt; omega⟩ : Fin 64) rfl, pay1_apply]

/-- The projected rows depend on the row only through its ball. -/
theorem bQ_ball (R R' : Fin 2048) (h : R'.val / 32 = R.val / 32) :
    bQ x0 x1 x2 x3 x4 x5 R' = bQ x0 x1 x2 x3 x4 x5 R := by
  have hr : ∀ m, ballRow h2048 R' m = ballRow h2048 R m := fun m => Fin.ext (by show R'.val / 32 * 32 + m.val = R.val / 32 * 32 + m.val; rw [h])
  have hP : bP x1 R' = bP x1 R := funext fun m => funext fun d => by unfold bP; rw [hr]
  have hX : bX x0 R' = bX x0 R := funext fun m => funext fun k => by unfold bX; rw [hr]
  unfold bQ; rw [hP, hX]

/-- The output rows of the chunk that starts at block row `o` (ball `o / 32`) are the heads' outputs of those rows. -/
theorem chunk_rows (o ob : Nat) (hob : o = ob * 32) (ho : o + 512 ≤ 2048) (hb : ob + 16 ≤ 64) (h : S64x32x3.Slices ![ob, 0, 0] S16x32x3)
    (r : Fin 512) (q : Fin 256) :
    chunkOut (F := Ideal) (RowLoads.rowsFrom 512 (k0_pay2 (F := Ideal) x0 x1 x4 x5 x2 x3) o ho)
        (extractStridedSlice S16x32x3 ![ob, 0, 0] (k0_pay1 (F := Ideal) x1) h) tiny x8 (ix2 r q)
      = attnBlock x0 x1 x2 x3 x4 x5 x8 (ix2 (⟨o + r.val, by have := r.isLt; omega⟩ : Fin 2048) q) := by
  have hr := r.isLt
  refine (chunkOut_apply _ _ x8 r q).trans ?_
  have key : ∀ (P P' : Fin 32 → Fin 3 → EReal) (Q Q' : Fin 32 → Fin 768 → EReal) (S : Fin 8 → EReal) (m m' : Fin 32),
      P = P' → Q = Q' → m = m' → heads P Q S m q = heads P' Q' S m' q := by
    intro P P' Q Q' S m m' h1 h2 h3; rw [h1, h2, h3]
  refine key _ _ _ _ _ _ _ ?_ ?_ ?_
  · funext m d
    rw [chunkBalls_apply x1 ob hb h]
    unfold bP
    refine congrArg (fun R => x1 (ix2 R d)) (Fin.ext ?_)
    show (ob + r.val / 32) * 32 + m.val = (o + r.val) / 32 * 32 + m.val
    omega
  · funext m j
    have hm := m.isLt
    show k0_pay2 (F := Ideal) x0 x1 x4 x5 x2 x3 (ix2 (⟨o + (r.val / 32 * 32 + m.val), by omega⟩ : Fin 2048) j) = _
    rw [qkv_apply, bQ_ball x0 x1 x2 x3 x4 x5 (⟨o + r.val, by omega⟩ : Fin 2048) (⟨o + (r.val / 32 * 32 + m.val), by omega⟩ : Fin 2048)
      (by show (o + (r.val / 32 * 32 + m.val)) / 32 = (o + r.val) / 32; omega)]
    refine congrArg (fun mm => bQ x0 x1 x2 x3 x4 x5 (⟨o + r.val, by omega⟩ : Fin 2048) mm j) (Fin.ext ?_)
    show (o + (r.val / 32 * 32 + m.val)) % 32 = m.val
    omega
  · exact Fin.ext (by show r.val % 32 = (o + r.val) % 32; omega)

/-- The output projection at an entry. -/
theorem pay22_apply (A : Vec Ideal S2048x256 .f32) (R : Fin 2048) (q : Fin 256) :
    k0_pay22 (F := Ideal) A x6 x7 (ix2 R q) = (∑ k : Fin 256, A (ix2 R k) * x6 (ix2 k q)) + x7 (ix2 (0 : Fin 1) q) := by
  unfold k0_pay22
  show matmul dot_S2048x256_S256x256_S2048x256_1_0_0_1_n_n none _ _ (constant S2048x256 .f32 0x00000000#32) (ix2 R q)
      + broadcastTo S2048x256 _ broadcasts_S1x256_S2048x256 (ix2 R q) = _
  rw [broadcastTo_1b_ab_apply _ broadcasts_S1x256_S2048x256 R q, shapeCast_self, shapeCast_self]
  exact congrArg (· + x7 (ix2 (0 : Fin 1) q))
    (Cert.LibPlainContract.matmul_plain_apply 2048 256 256 none (truncf .bf16 A bitsLt_bf16_f32) x6 R q)

end Block2

section Block3

variable (x0 : Vec Ideal S2048x256 .f32) (x1 : Vec Ideal S2048x3 .f32) (x2 : FVec Ideal S256x768 .bf16) (x3 : Vec Ideal S1x768 .f32)
  (x4 : Vec Ideal S3x256 .f32) (x5 : Vec Ideal S1x256 .f32) (x6 : FVec Ideal S256x256 .bf16) (x7 : Vec Ideal S1x256 .f32)
  (x8 : Vec Ideal S1x8x1x1 .f32)

/-- A chunk's store, through its rectangle of 512 rows from row `o`, holds the heads' outputs of those rows. -/
theorem piece_rows (o ob : Nat) (hob : o = ob * 32) (ho : o + 512 ≤ 2048) (hb : ob + 16 ≤ 64) (h : S64x32x3.Slices ![ob, 0, 0] S16x32x3)
    (inb : ∀ a, (![o, 0] : Fin 2 → Nat) a + S512x256.size a ≤ S2048x256.size a) (x : S512x256.Idx) :
    chunkOut (F := Ideal) (RowLoads.rowsFrom 512 (k0_pay2 (F := Ideal) x0 x1 x4 x5 x2 x3) o ho)
        (extractStridedSlice S16x32x3 ![ob, 0, 0] (k0_pay1 (F := Ideal) x1) h) tiny x8 x
      = attnBlock x0 x1 x2 x3 x4 x5 x8 ((Rect.unit (s := S2048x256) ![o, 0] S512x256.size inb).emb x) := by
  obtain ⟨r, q, rfl⟩ : ∃ (r : Fin 512) (q : Fin 256), x = ix2 r q := ⟨x 0, x 1, eq_ix2 x⟩
  refine (chunk_rows x0 x1 x2 x3 x4 x5 x8 o ob hob ho hb h r q).trans (congrArg (attnBlock x0 x1 x2 x3 x4 x5 x8) ?_)
  funext a; apply Fin.ext
  fin_cases a
  · show o + r.val = o + 1 * r.val; omega
  · show q.val = 0 + 1 * q.val; omega

end Block3

/-- WHAT A GRID POINT LEAVES IN THE OUTPUT'S BUFFER: the specification's result rows of the block's 64 balls. -/
theorem out_block (c : Dev nD) (i : grid0.Coords) (arg1 : Memref sig .tc .vmem S2048x256 .f32) (harg1 : arg1.IsWhole) (arg2 : Memref sig .tc .vmem S2048x3 .f32) (harg2 : arg2.IsWhole) (arg3 : Memref sig .tc .vmem S256x768 .bf16) (harg3 : arg3.IsWhole) (arg4 : Memref sig .tc .vmem S1x768 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x8x1x1 .f32) (harg9 : arg9.IsWhole) (arg10 : Memref sig .tc .vmem S2048x256 .f32) (harg10 : arg10.IsWhole) (arg11 : Memref sig .tc .vmem S2048x768 .f32) (harg11 : arg11.IsWhole) (arg12 : Memref sig .tc .vmem S2048x256 .f32) (harg12 : arg12.IsWhole)
    (x0 : Vec Ideal S2048x256 .f32) (x1 : Vec Ideal S2048x3 .f32) (x2 : FVec Ideal S256x768 .bf16) (x3 : Vec Ideal S1x768 .f32) (x4 : Vec Ideal S3x256 .f32) (x5 : Vec Ideal S1x256 .f32) (x6 : FVec Ideal S256x256 .bf16) (x7 : Vec Ideal S1x256 .f32) (x8 : Vec Ideal S1x8x1x1 .f32) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = blockResult x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread,
    View.ld_unit_zero (S := S2048x256) hz2, View.ld_unit_zero (S := S2048x3) hz2, View.ld_unit_zero (S := S256x768) hz2,
    View.ld_unit_zero (S := S1x768) hz2, View.ld_unit_zero (S := S3x256) hz2, View.ld_unit_zero (S := S1x256) hz2,
    View.ld_unit_zero (S := S256x256) hz2, View.ld_unit_zero (S := S1x8x1x1) hz4]
  rw [readCov_all _ hz2]
  rw [readCov_whole_rows (m := 2048) (n := 768) (k := 512) arg11.view _ _ 1536 _,
    readCov_whole_rows (m := 2048) (n := 768) (k := 512) arg11.view _ _ 1024 _,
    readCov_whole_rows (m := 2048) (n := 768) (k := 512) arg11.view _ _ 512 _,
    readCov_whole_rows (m := 2048) (n := 768) (k := 512) arg11.view _ _ 0 _]
  rw [show k0_pay3 (F := Ideal) (k0_pay2 x0 x1 x4 x5 x2 x3) = k0_pay2 x0 x1 x4 x5 x2 x3 from shapeCast_self _ _]
  rw [chunk0_eq, chunk1_eq, chunk2_eq, chunk3_eq]
  funext y
  obtain ⟨R, q, rfl⟩ : ∃ (R : Fin 2048) (q : Fin 256), y = ix2 R q := ⟨y 0, y 1, eq_ix2 y⟩
  rw [pay22_apply]
  show _ = (∑ k : Fin 256, attnBlock x0 x1 x2 x3 x4 x5 x8 (ix2 R k) * x6 (ix2 k q)) + x7 (ix2 (0 : Fin 1) q)
  refine congrArg (· + x7 (ix2 (0 : Fin 1) q)) (Finset.sum_congr rfl fun k _ => congrArg (· * x6 (ix2 k q)) ?_)
  refine View.canon_apply_of_pieces (Val := Elt Ideal) (S := S2048x256) (e := .f32) (attnBlock x0 x1 x2 x3 x4 x5 x8) _ ?_ (ix2 R k)
    (View.cover_of_tiledL (s := S2048x256) _ (![512, 256] : Fin 2 → ℕ) (by sl_kernel_rfl) (ix2 R k))
  intro p hp x
  simp only [List.mem_cons, List.not_mem_nil, or_false] at hp
  rcases hp with rfl | rfl | rfl | rfl
  · exact piece_rows x0 x1 x2 x3 x4 x5 x8 1536 48 rfl (by decide) (by decide) slices_S64x32x3_o48_0_0_S16x32x3 inb_S2048x256_S512x256_1536_0 x
  · exact piece_rows x0 x1 x2 x3 x4 x5 x8 1024 32 rfl (by decide) (by decide) slices_S64x32x3_o32_0_0_S16x32x3 inb_S2048x256_S512x256_1024_0 x
  · exact piece_rows x0 x1 x2 x3 x4 x5 x8 512 16 rfl (by decide) (by decide) slices_S64x32x3_o16_0_0_S16x32x3 inb_S2048x256_S512x256_512_0 x
  · exact piece_rows x0 x1 x2 x3 x4 x5 x8 0 0 rfl (by decide) (by decide) slices_S64x32x3_o0_0_0_S16x32x3 inb_S2048x256_S512x256_0_0 x

end Cert.KernelIdeal.Body

end
-- ==== Proof.RefPos.lean ====
/-
  The reference's position stages, ball by ball: the positions regrouped as 8192 balls of 32 points, the
  ball's mean, and each point's position relative to the mean.  Row n·32 + m of the whole array is point m
  of ball n.
-/
import proofs.«173495_j42880953483553_1_alg».proof.Proof.Gen.ReferenceIdeal.Read
import proofs.«173495_j42880953483553_1_alg».proof.Proof.Spec

noncomputable section

namespace Cert.RefSide

open Cert.ReferenceIdeal Cert.ReferenceIdeal.Read Cert.BallAttention
open Idealize.ShloMosaic Idealize.ShloMosaic.ValueIdx

/-- The row of the whole array that holds point `m` of ball `n`. -/
def row (n : Fin 8192) (m : Fin 32) : Fin 262144 :=
  ⟨n.val * 32 + m.val, by have := n.isLt; have := m.isLt; omega⟩

/-- The positions of ball `n`'s points. -/
def posOf (x1 : S262144x3.Idx → EReal) (n : Fin 8192) (m : Fin 32) (d : Fin 3) : EReal :=
  x1 (ix2 (row n m) d)

/-- The regrouped positions at ball `n`, point `m`, coordinate `d`. -/
theorem v0_at (x1 : S262144x3.Idx → EReal) (n : Fin 8192) (m : Fin 32) (d : Fin 3) :
    val_main_v0 (F := Ideal) x1 (ix3 n m d) = posOf x1 n m d := by
  rw [val_main_v0_apply]
  refine congrArg x1 (funext fun a => Fin.ext ?_)
  have hn := n.isLt; have hm := m.isLt; have hd := d.isLt
  match a with
  | ⟨0, _⟩ => show ((n.val * 32 + m.val) * 3 + d.val) / 3 = n.val * 32 + m.val; omega
  | ⟨1, _⟩ => show ((n.val * 32 + m.val) * 3 + d.val) % 3 = d.val; omega

/-- The sum of a ball's positions. -/
theorem v1_at (x1 : S262144x3.Idx → EReal) (n : Fin 8192) (d : Fin 3) :
    val_main_v1 (F := Ideal) x1 (ix2 n d) = ∑ j : Fin 32, posOf x1 n j d := by
  rw [val_main_v1_apply, val_main_cst_apply, Ideal.ofBits_def, Ideal.ofBits_zero_f32, zero_add]
  refine Finset.sum_congr rfl fun k _ => ?_
  have e : idx_main_v1 (ix2 n d) k = ix3 n k d :=
    funext fun a => Fin.ext (by match a with | ⟨0, _⟩ => rfl | ⟨1, _⟩ => rfl | ⟨2, _⟩ => rfl)
  rw [e, v0_at]

/-- The ball's mean position. -/
theorem v4_at (x1 : S262144x3.Idx → EReal) (n : Fin 8192) (d : Fin 3) :
    val_main_v4 (F := Ideal) x1 (ix3 n 0 d) = centre (posOf x1 n) d := by
  have e : idx_main_v2 (ix3 n (0 : Fin 1) d) = ix2 n d :=
    funext fun a => Fin.ext (by match a with | ⟨0, _⟩ => rfl | ⟨1, _⟩ => rfl)
  rw [val_main_v4_apply, val_main_v2_apply, val_main_v3_apply, val_main_cst_0_apply, e, v1_at]
  rfl

/-- A point's position relative to its ball's mean. -/
theorem v6_at (x1 : S262144x3.Idx → EReal) (n : Fin 8192) (m : Fin 32) (d : Fin 3) :
    val_main_v6 (F := Ideal) x1 (ix3 n m d) = rel (posOf x1 n) m d := by
  have e : idx_main_v5 (ix3 n m d) = ix3 n (0 : Fin 1) d :=
    funext fun a => Fin.ext (by match a with | ⟨0, _⟩ => rfl | ⟨1, _⟩ => rfl | ⟨2, _⟩ => rfl)
  rw [val_main_v6_apply, val_main_v5_apply, e, v4_at, v0_at]
  rfl

/-- The relative positions as rows of the whole array. -/
theorem v7_at (x1 : S262144x3.Idx → EReal) (n : Fin 8192) (m : Fin 32) (d : Fin 3) :
    val_main_v7 (F := Ideal) x1 (ix2 (row n m) d) = rel (posOf x1 n) m d := by
  have e : idx_main_v7 (ix2 (row n m) d) = ix3 n m d := by
    refine funext fun a => Fin.ext ?_
    have hn := n.isLt; have hm := m.isLt; have hd := d.isLt
    match a with
    | ⟨0, _⟩ => show ((n.val * 32 + m.val) * 3 + d.val) / 96 = n.val; omega
    | ⟨1, _⟩ => show ((n.val * 32 + m.val) * 3 + d.val) / 3 % 32 = m.val; omega
    | ⟨2, _⟩ => show ((n.val * 32 + m.val) * 3 + d.val) % 3 = d.val; omega
  rw [val_main_v7_apply, e, v6_at]

end Cert.RefSide

end
-- ==== Proof.RefEmbed.lean ====
/-
  The reference's two dense stages before the attention, ball by ball: the feature row with the embedded
  relative position (a product over the three coordinates, the host sum starting from zero) and its bias,
  and the fused projection of that row with its bias.
-/
import proofs.«173495_j42880953483553_1_alg».proof.Proof.RefPos

noncomputable section

namespace Cert.RefSide

open Cert.ReferenceIdeal Cert.ReferenceIdeal.Read Cert.BallAttention
open Idealize.ShloMosaic Idealize.ShloMosaic.ValueIdx

/-- The feature rows of ball `n`'s points. -/
def featOf (x0 : S262144x256.Idx → EReal) (n : Fin 8192) (m : Fin 32) (k : Fin 256) : EReal :=
  x0 (ix2 (row n m) k)

/-- Ball `n`'s rows after the position embedding. -/
def embOf (x0 : S262144x256.Idx → EReal) (x1 : S262144x3.Idx → EReal) (x4 : S3x256.Idx → EReal)
    (x5 : S256.Idx → EReal) (n : Fin 8192) : Fin 32 → Fin 256 → EReal :=
  embed (posOf x1 n) (featOf x0 n) (fun d k => x4 (ix2 d k)) (fun k => x5 (ix1 k))

/-- Ball `n`'s fused query, key and value rows. -/
def qkvOf (x0 : S262144x256.Idx → EReal) (x1 : S262144x3.Idx → EReal) (x2 : S256x768.Idx → EReal)
    (x3 : S768.Idx → EReal) (x4 : S3x256.Idx → EReal) (x5 : S256.Idx → EReal) (n : Fin 8192) :
    Fin 32 → Fin 768 → EReal :=
  project (embOf x0 x1 x4 x5 n) (fun k j => x2 (ix2 k j)) (fun j => x3 (ix1 j))

/-- The embedded row: the three products of the host's contraction are the specification's three products
    added left to right, the host sum's initial zero added on the left. -/
theorem v12_at (x0 : S262144x256.Idx → EReal) (x1 : S262144x3.Idx → EReal) (x4 : S3x256.Idx → EReal)
    (x5 : S256.Idx → EReal) (n : Fin 8192) (m : Fin 32) (q : Fin 256) :
    val_main_v12 (F := Ideal) x0 x1 x4 x5 (ix2 (row n m) q) = embOf x0 x1 x4 x5 n m q := by
  have el : ∀ k : Fin 3, lidx_main_v8 (ix2 (row n m) q) k = ix2 (row n m) k := fun k =>
    funext fun a => Fin.ext (by match a with | ⟨0, _⟩ => rfl | ⟨1, _⟩ => rfl)
  have er : ∀ k : Fin 3, ridx_main_v8 (ix2 (row n m) q) k = ix2 k q := fun k =>
    funext fun a => Fin.ext (by match a with | ⟨0, _⟩ => rfl | ⟨1, _⟩ => rfl)
  have eb : idx_main_v10 (idx_main_v11 (ix2 (row n m) q)) = ix1 q :=
    funext fun a => Fin.ext (by match a with | ⟨0, _⟩ => rfl)
  rw [val_main_v12_apply, val_main_v9_apply, val_main_v8_apply, val_main_v11_apply, val_main_v10_apply,
    Fin.sum_univ_three, el, el, el, er, er, er, eb, v7_at, v7_at, v7_at]
  rfl

/-- The fused projection of the embedded row. -/
theorem v16_at (x0 : S262144x256.Idx → EReal) (x1 : S262144x3.Idx → EReal) (x2 : S256x768.Idx → EReal)
    (x3 : S768.Idx → EReal) (x4 : S3x256.Idx → EReal) (x5 : S256.Idx → EReal)
    (n : Fin 8192) (m : Fin 32) (j : Fin 768) :
    val_main_v16 (F := Ideal) x0 x1 x2 x3 x4 x5 (ix2 (row n m) j) = qkvOf x0 x1 x2 x3 x4 x5 n m j := by
  have el : ∀ k : Fin 256, lidx_main_v13 (ix2 (row n m) j) k = ix2 (row n m) k := fun k =>
    funext fun a => Fin.ext (by match a with | ⟨0, _⟩ => rfl | ⟨1, _⟩ => rfl)
  have er : ∀ k : Fin 256, ridx_main_v13 (ix2 (row n m) j) k = ix2 k j := fun k =>
    funext fun a => Fin.ext (by match a with | ⟨0, _⟩ => rfl | ⟨1, _⟩ => rfl)
  have eb : idx_main_v14 (idx_main_v15 (ix2 (row n m) j)) = ix1 j :=
    funext fun a => Fin.ext (by match a with | ⟨0, _⟩ => rfl)
  have s : (∑ k : Fin 256, val_main_v12 (F := Ideal) x0 x1 x4 x5 (lidx_main_v13 (ix2 (row n m) j) k)
        * x2 (ridx_main_v13 (ix2 (row n m) j) k))
      = ∑ k : Fin 256, embOf x0 x1 x4 x5 n m k * x2 (ix2 k j) :=
    Finset.sum_congr rfl fun k _ => by rw [el k, er k, v12_at]
  rw [val_main_v16_apply, val_main_v13_apply, val_main_v15_apply, val_main_v14_apply, s, eb]
  rfl

end Cert.RefSide

end
-- ==== Proof.RefQKV.lean ====
/-
  The reference's query, key and value, by ball, head, point and coordinate: the fused row of 768 numbers
  is regrouped as 8 heads of 32 coordinates of 3 parts, one part is cut out, and heads and points change
  places.  Each entry is one column of the point's fused row.
-/
import proofs.«173495_j42880953483553_1_alg».proof.Proof.RefEmbed

noncomputable section

namespace Cert.RefSide

open Cert.ReferenceIdeal Cert.ReferenceIdeal.Read Cert.BallAttention
open Idealize.ShloMosaic Idealize.ShloMosaic.ValueIdx

/-- The query of ball `n`, head `h`, point `m`, coordinate `e`: column (h·32 + e)·3 + 0 of the point's fused row. -/
theorem v20_at (x0 : S262144x256.Idx → EReal) (x1 : S262144x3.Idx → EReal) (x2 : S256x768.Idx → EReal)
    (x3 : S768.Idx → EReal) (x4 : S3x256.Idx → EReal) (x5 : S256.Idx → EReal)
    (n : Fin 8192) (h : Fin 8) (m e : Fin 32) :
    val_main_v20 (F := Ideal) x0 x1 x2 x3 x4 x5 (ix4 n h m e) = qkvOf x0 x1 x2 x3 x4 x5 n m (col h e 0) := by
  have hn := n.isLt; have hh := h.isLt; have hm := m.isLt; have he := e.isLt
  have e1 : idx_main_v19 (idx_main_v20 (ix4 n h m e)) = ix5 n m h e (0 : Fin 1) := by
    refine funext fun a => Fin.ext ?_
    match a with
    | ⟨0, _⟩ => show (((n.val * 32 + m.val) * 8 + h.val) * 32 + e.val) / 8192 = n.val; omega
    | ⟨1, _⟩ => show (((n.val * 32 + m.val) * 8 + h.val) * 32 + e.val) / 256 % 32 = m.val; omega
    | ⟨2, _⟩ => show (((n.val * 32 + m.val) * 8 + h.val) * 32 + e.val) / 32 % 8 = h.val; omega
    | ⟨3, _⟩ => show (((n.val * 32 + m.val) * 8 + h.val) * 32 + e.val) / 1 % 32 = e.val; omega
    | ⟨4, _⟩ => rfl
  have e2 : idx_main_v17 (idx_main_v18 (ix5 n m h e (0 : Fin 1))) = ix2 (row n m) (col h e 0) := by
    refine funext fun a => Fin.ext ?_
    match a with
    | ⟨0, _⟩ =>
      show ((((n.val * 32 + m.val) * 8 + h.val) * 32 + e.val) * 3 + (0 + 0)) / 768 = n.val * 32 + m.val
      omega
    | ⟨1, _⟩ =>
      show ((((n.val * 32 + m.val) * 8 + h.val) * 32 + e.val) * 3 + (0 + 0)) % 768 = (h.val * 32 + e.val) * 3 + 0
      omega
  rw [val_main_v20_apply, val_main_v19_apply, val_main_v18_apply, val_main_v17_apply, e1, e2, v16_at]

/-- The key of ball `n`, head `h`, point `m`, coordinate `e`: column (h·32 + e)·3 + 1 of the point's fused row. -/
theorem v23_at (x0 : S262144x256.Idx → EReal) (x1 : S262144x3.Idx → EReal) (x2 : S256x768.Idx → EReal)
    (x3 : S768.Idx → EReal) (x4 : S3x256.Idx → EReal) (x5 : S256.Idx → EReal)
    (n : Fin 8192) (h : Fin 8) (m e : Fin 32) :
    val_main_v23 (F := Ideal) x0 x1 x2 x3 x4 x5 (ix4 n h m e) = qkvOf x0 x1 x2 x3 x4 x5 n m (col h e 1) := by
  have hn := n.isLt; have hh := h.isLt; have hm := m.isLt; have he := e.isLt
  have e1 : idx_main_v22 (idx_main_v23 (ix4 n h m e)) = ix5 n m h e (0 : Fin 1) := by
    refine funext fun a => Fin.ext ?_
    match a with
    | ⟨0, _⟩ => show (((n.val * 32 + m.val) * 8 + h.val) * 32 + e.val) / 8192 = n.val; omega
    | ⟨1, _⟩ => show (((n.val * 32 + m.val) * 8 + h.val) * 32 + e.val) / 256 % 32 = m.val; omega
    | ⟨2, _⟩ => show (((n.val * 32 + m.val) * 8 + h.val) * 32 + e.val) / 32 % 8 = h.val; omega
    | ⟨3, _⟩ => show (((n.val * 32 + m.val) * 8 + h.val) * 32 + e.val) / 1 % 32 = e.val; omega
    | ⟨4, _⟩ => rfl
  have e2 : idx_main_v17 (idx_main_v21 (ix5 n m h e (0 : Fin 1))) = ix2 (row n m) (col h e 1) := by
    refine funext fun a => Fin.ext ?_
    match a with
    | ⟨0, _⟩ =>
      show ((((n.val * 32 + m.val) * 8 + h.val) * 32 + e.val) * 3 + (1 + 0)) / 768 = n.val * 32 + m.val
      omega
    | ⟨1, _⟩ =>
      show ((((n.val * 32 + m.val) * 8 + h.val) * 32 + e.val) * 3 + (1 + 0)) % 768 = (h.val * 32 + e.val) * 3 + 1
      omega
  rw [val_main_v23_apply, val_main_v22_apply, val_main_v21_apply, val_main_v17_apply, e1, e2, v16_at]

/-- The value of ball `n`, head `h`, point `m`, coordinate `e`: column (h·32 + e)·3 + 2 of the point's fused row. -/
theorem v26_at (x0 : S262144x256.Idx → EReal) (x1 : S262144x3.Idx → EReal) (x2 : S256x768.Idx → EReal)
    (x3 : S768.Idx → EReal) (x4 : S3x256.Idx → EReal) (x5 : S256.Idx → EReal)
    (n : Fin 8192) (h : Fin 8) (m e : Fin 32) :
    val_main_v26 (F := Ideal) x0 x1 x2 x3 x4 x5 (ix4 n h m e) = qkvOf x0 x1 x2 x3 x4 x5 n m (col h e 2) := by
  have hn := n.isLt; have hh := h.isLt; have hm := m.isLt; have he := e.isLt
  have e1 : idx_main_v25 (idx_main_v26 (ix4 n h m e)) = ix5 n m h e (0 : Fin 1) := by
    refine funext fun a => Fin.ext ?_
    match a with
    | ⟨0, _⟩ => show (((n.val * 32 + m.val) * 8 + h.val) * 32 + e.val) / 8192 = n.val; omega
    | ⟨1, _⟩ => show (((n.val * 32 + m.val) * 8 + h.val) * 32 + e.val) / 256 % 32 = m.val; omega
    | ⟨2, _⟩ => show (((n.val * 32 + m.val) * 8 + h.val) * 32 + e.val) / 32 % 8 = h.val; omega
    | ⟨3, _⟩ => show (((n.val * 32 + m.val) * 8 + h.val) * 32 + e.val) / 1 % 32 = e.val; omega
    | ⟨4, _⟩ => rfl
  have e2 : idx_main_v17 (idx_main_v24 (ix5 n m h e (0 : Fin 1))) = ix2 (row n m) (col h e 2) := by
    refine funext fun a => Fin.ext ?_
    match a with
    | ⟨0, _⟩ =>
      show ((((n.val * 32 + m.val) * 8 + h.val) * 32 + e.val) * 3 + (2 + 0)) / 768 = n.val * 32 + m.val
      omega
    | ⟨1, _⟩ =>
      show ((((n.val * 32 + m.val) * 8 + h.val) * 32 + e.val) * 3 + (2 + 0)) % 768 = (h.val * 32 + e.val) * 3 + 2
      omega
  rw [val_main_v26_apply, val_main_v25_apply, val_main_v24_apply, val_main_v17_apply, e1, e2, v16_at]

end Cert.RefSide

end
-- ==== Proof.RefDist.lean ====
/-
  The reference's distance stages: inside ball n, the distance between points m and k is the square root
  of the larger of the squared distance (the sum over the three coordinates of the squared difference) and
  a tiny constant.
-/
import proofs.«173495_j42880953483553_1_alg».proof.Proof.RefPos

noncomputable section

namespace Cert.RefSide

open Cert.ReferenceIdeal Cert.ReferenceIdeal.Read Cert.BallAttention
open Idealize.ShloMosaic Idealize.ShloMosaic.ValueIdx

/-- The difference of two points' positions in one coordinate. -/
theorem v31_at (x1 : S262144x3.Idx → EReal) (n : Fin 8192) (m k : Fin 32) (d : Fin 3) :
    val_main_v31 (F := Ideal) x1 (ix4 n m k d) = posOf x1 n m d - posOf x1 n k d := by
  have e1 : idx_main_v27 (idx_main_v29 (ix4 n m k d)) = ix3 n m d :=
    funext fun a => Fin.ext (by match a with | ⟨0, _⟩ => rfl | ⟨1, _⟩ => rfl | ⟨2, _⟩ => rfl)
  have e2 : idx_main_v28 (idx_main_v30 (ix4 n m k d)) = ix3 n k d :=
    funext fun a => Fin.ext (by match a with | ⟨0, _⟩ => rfl | ⟨1, _⟩ => rfl | ⟨2, _⟩ => rfl)
  rw [val_main_v31_apply, val_main_v29_apply, val_main_v27_apply, val_main_v30_apply, val_main_v28_apply,
    e1, e2, v0_at, v0_at]
  rfl

/-- The floored distance between two points of a ball. -/
theorem v36_at (x1 : S262144x3.Idx → EReal) (n : Fin 8192) (m k : Fin 32) :
    val_main_v36 (F := Ideal) x1 (ix3 n m k) = dist (posOf x1 n) m k := by
  rw [val_main_v36_apply, val_main_v35_apply, val_main_v33_apply, val_main_v34_apply, val_main_cst_1_apply,
    val_main_cst_2_apply, Ideal.ofBits_def, Ideal.ofBits_zero_f32, zero_add]
  have e : ∀ d : Fin 3, idx_main_v33 (ix3 n m k) d = ix4 n m k d := fun d =>
    funext fun a => Fin.ext (by match a with | ⟨0, _⟩ => rfl | ⟨1, _⟩ => rfl | ⟨2, _⟩ => rfl | ⟨3, _⟩ => rfl)
  have s : (∑ d : Fin 3, val_main_v32 (F := Ideal) x1 (idx_main_v33 (ix3 n m k) d))
      = ∑ d : Fin 3, (posOf x1 n m d - posOf x1 n k d) * (posOf x1 n m d - posOf x1 n k d) :=
    Finset.sum_congr rfl fun d _ => by rw [e d, val_main_v32_apply, v31_at]; rfl
  rw [s]
  rfl

end Cert.RefSide

end
-- ==== Proof.RefScore.lean ====
/-
  The reference's scores and their row maxima: the score of points m and k of ball n under head h is the
  dot product of m's query and k's key times the scale, plus the head's coefficient times the distance (the
  host multiplies coefficient by distance; the product commutes).  The row's top score is a fold of max from
  minus infinity over the 32 keys, capped below by minus infinity once more.
-/
import proofs.«173495_j42880953483553_1_alg».proof.Proof.RefQKV
import proofs.«173495_j42880953483553_1_alg».proof.Proof.RefDist

noncomputable section

namespace Cert.RefSide

open Cert.ReferenceIdeal Cert.ReferenceIdeal.Read Cert.BallAttention
open Idealize.ShloMosaic Idealize.ShloMosaic.ValueIdx

/-- Head `h`'s distance coefficient. -/
def sigOf (x8 : S1x8x1x1.Idx → EReal) (h : Fin 8) : EReal := x8 (ix4 0 h 0 0)

/-- The score. -/
theorem v44_at (x0 : S262144x256.Idx → EReal) (x1 : S262144x3.Idx → EReal) (x2 : S256x768.Idx → EReal)
    (x3 : S768.Idx → EReal) (x4 : S3x256.Idx → EReal) (x5 : S256.Idx → EReal) (x8 : S1x8x1x1.Idx → EReal)
    (n : Fin 8192) (h : Fin 8) (m k : Fin 32) :
    val_main_v44 (F := Ideal) x0 x1 x2 x3 x4 x5 x8 (ix4 n h m k)
      = score (posOf x1 n) (qkvOf x0 x1 x2 x3 x4 x5 n) (sigOf x8) h m k := by
  have el : ∀ e : Fin 32, lidx_main_v41 (ix4 n h m k) e = ix4 n h m e := fun e =>
    funext fun a => Fin.ext (by match a with | ⟨0, _⟩ => rfl | ⟨1, _⟩ => rfl | ⟨2, _⟩ => rfl | ⟨3, _⟩ => rfl)
  have er : ∀ e : Fin 32, ridx_main_v41 (ix4 n h m k) e = ix4 n h k e := fun e =>
    funext fun a => Fin.ext (by match a with | ⟨0, _⟩ => rfl | ⟨1, _⟩ => rfl | ⟨2, _⟩ => rfl | ⟨3, _⟩ => rfl)
  have es : idx_main_v38 (ix4 n h m k) = ix4 (0 : Fin 1) h (0 : Fin 1) (0 : Fin 1) :=
    funext fun a => Fin.ext (by match a with | ⟨0, _⟩ => rfl | ⟨1, _⟩ => rfl | ⟨2, _⟩ => rfl | ⟨3, _⟩ => rfl)
  have ed : idx_main_v37 (idx_main_v39 (ix4 n h m k)) = ix3 n m k :=
    funext fun a => Fin.ext (by match a with | ⟨0, _⟩ => rfl | ⟨1, _⟩ => rfl | ⟨2, _⟩ => rfl)
  have s : (∑ e : Fin 32, val_main_v20 (F := Ideal) x0 x1 x2 x3 x4 x5 (lidx_main_v41 (ix4 n h m k) e)
        * val_main_v23 (F := Ideal) x0 x1 x2 x3 x4 x5 (ridx_main_v41 (ix4 n h m k) e))
      = ∑ e : Fin 32, qkvOf x0 x1 x2 x3 x4 x5 n m (col h e 0) * qkvOf x0 x1 x2 x3 x4 x5 n k (col h e 1) :=
    Finset.sum_congr rfl fun e _ => by rw [el e, er e, v20_at, v23_at]
  rw [val_main_v44_apply, val_main_v43_apply, val_main_v41_apply, val_main_v42_apply, val_main_cst_3_apply,
    val_main_v40_apply, val_main_v38_apply, val_main_v39_apply, val_main_v37_apply, s, es, ed, v36_at]
  simp only [Ideal.addf_def, Ideal.mulf_def, Ideal.ofBits_def]
  unfold score sigOf
  rw [mul_comm (x8 _) (dist _ _ _)]

/-- Over an array of rank 4 reduced along its last axis, the source index over `(a, b, c)` with last
    coordinate `k` inserted is `(a, b, c, k)`. -/
theorem lift_ix3 {A B C D : Nat} (hr : (⟨4, ![A, B, C, D]⟩ : Shape).Reduces [3] ⟨3, ![A, B, C]⟩)
    (a : Fin A) (b : Fin B) (c : Fin C) (k : Fin D) : hr.lift (ix3 a b c) k = ix4 a b c k := by
  funext t
  match t with
  | ⟨0, _⟩ => rfl
  | ⟨1, _⟩ => rfl
  | ⟨2, _⟩ => rfl
  | ⟨3, _⟩ => rfl

/-- The fold of max over a row's scores, from minus infinity. -/
theorem v45_at (x0 : S262144x256.Idx → EReal) (x1 : S262144x3.Idx → EReal) (x2 : S256x768.Idx → EReal)
    (x3 : S768.Idx → EReal) (x4 : S3x256.Idx → EReal) (x5 : S256.Idx → EReal) (x8 : S1x8x1x1.Idx → EReal)
    (n : Fin 8192) (h : Fin 8) (m : Fin 32) :
    val_main_v45 (F := Ideal) x0 x1 x2 x3 x4 x5 x8 (ix3 n h m)
      = (Finset.univ : Finset (Fin 32)).fold max bot
          (fun k => score (posOf x1 n) (qkvOf x0 x1 x2 x3 x4 x5 n) (sigOf x8) h m k) := by
  have hr : S8192x8x32x32.Reduces [3] S8192x8x32 := by decide
  unfold val_main_v45
  refine (Host.reduce_eq_fold_single _ (val_main_v44 (F := Ideal) x0 x1 x2 x3 x4 x5 x8)
    (val_main_cst_4 (F := Ideal)) _ hr _ (ix3 n h m)).trans ?_
  have e : (val_main_v44 (F := Ideal) x0 x1 x2 x3 x4 x5 x8 ∘ hr.lift (ix3 n h m))
      = fun k : Fin 32 => score (posOf x1 n) (qkvOf x0 x1 x2 x3 x4 x5 n) (sigOf x8) h m k :=
    funext fun (k : Fin 32) => by
      show val_main_v44 (F := Ideal) x0 x1 x2 x3 x4 x5 x8 (hr.lift (ix3 n h m) k) = _
      rw [lift_ix3 hr n h m k, v44_at]
  rw [e]
  rfl

/-- The row's top score. -/
theorem v47_at (x0 : S262144x256.Idx → EReal) (x1 : S262144x3.Idx → EReal) (x2 : S256x768.Idx → EReal)
    (x3 : S768.Idx → EReal) (x4 : S3x256.Idx → EReal) (x5 : S256.Idx → EReal) (x8 : S1x8x1x1.Idx → EReal)
    (n : Fin 8192) (h : Fin 8) (m : Fin 32) :
    val_main_v47 (F := Ideal) x0 x1 x2 x3 x4 x5 x8 (ix3 n h m)
      = top (posOf x1 n) (qkvOf x0 x1 x2 x3 x4 x5 n) (sigOf x8) h m := by
  rw [val_main_v47_apply, val_main_v46_apply, val_main_cst_5_apply, v45_at]
  rfl

end Cert.RefSide

end
-- ==== Proof.RefSoftmax.lean ====
/-
  The reference's softmax and mixing, inside ball n under head h: the weight of key k for point m is the
  exponential of the score minus the row's top score; the weights are divided by their sum over the 32 keys
  (the host sum starts from zero); the head's output is the weighted sum of the values.
-/
import proofs.«173495_j42880953483553_1_alg».proof.Proof.RefScore

noncomputable section

namespace Cert.RefSide

open Cert.ReferenceIdeal Cert.ReferenceIdeal.Read Cert.BallAttention
open Idealize.ShloMosaic Idealize.ShloMosaic.ValueIdx

/-- The unnormalised weight. -/
theorem v51_at (x0 : S262144x256.Idx → EReal) (x1 : S262144x3.Idx → EReal) (x2 : S256x768.Idx → EReal)
    (x3 : S768.Idx → EReal) (x4 : S3x256.Idx → EReal) (x5 : S256.Idx → EReal) (x8 : S1x8x1x1.Idx → EReal)
    (n : Fin 8192) (h : Fin 8) (m k : Fin 32) :
    val_main_v51 (F := Ideal) x0 x1 x2 x3 x4 x5 x8 (ix4 n h m k) = weight (posOf x1 n) (qkvOf x0 x1 x2 x3 x4 x5 n) (sigOf x8) h m k := by
  have e : idx_main_v48 (idx_main_v49 (ix4 n h m k)) = ix3 n h m :=
    funext fun a => Fin.ext (by match a with | ⟨0, _⟩ => rfl | ⟨1, _⟩ => rfl | ⟨2, _⟩ => rfl)
  rw [val_main_v51_apply, val_main_v50_apply, val_main_v49_apply, val_main_v48_apply, e, v44_at, v47_at]
  rfl

/-- The sum of a row's weights. -/
theorem v52_at (x0 : S262144x256.Idx → EReal) (x1 : S262144x3.Idx → EReal) (x2 : S256x768.Idx → EReal)
    (x3 : S768.Idx → EReal) (x4 : S3x256.Idx → EReal) (x5 : S256.Idx → EReal) (x8 : S1x8x1x1.Idx → EReal)
    (n : Fin 8192) (h : Fin 8) (m : Fin 32) :
    val_main_v52 (F := Ideal) x0 x1 x2 x3 x4 x5 x8 (ix3 n h m) = ∑ k : Fin 32, weight (posOf x1 n) (qkvOf x0 x1 x2 x3 x4 x5 n) (sigOf x8) h m k := by
  rw [val_main_v52_apply, val_main_cst_6_apply, Ideal.ofBits_def, Ideal.ofBits_zero_f32, zero_add]
  refine Finset.sum_congr rfl fun k _ => ?_
  have e : idx_main_v52 (ix3 n h m) k = ix4 n h m k :=
    funext fun a => Fin.ext (by match a with | ⟨0, _⟩ => rfl | ⟨1, _⟩ => rfl | ⟨2, _⟩ => rfl | ⟨3, _⟩ => rfl)
  rw [e, v51_at]

/-- The attention weight. -/
theorem v55_at (x0 : S262144x256.Idx → EReal) (x1 : S262144x3.Idx → EReal) (x2 : S256x768.Idx → EReal)
    (x3 : S768.Idx → EReal) (x4 : S3x256.Idx → EReal) (x5 : S256.Idx → EReal) (x8 : S1x8x1x1.Idx → EReal)
    (n : Fin 8192) (h : Fin 8) (m k : Fin 32) :
    val_main_v55 (F := Ideal) x0 x1 x2 x3 x4 x5 x8 (ix4 n h m k) = attn (posOf x1 n) (qkvOf x0 x1 x2 x3 x4 x5 n) (sigOf x8) h m k := by
  have e : idx_main_v53 (idx_main_v54 (ix4 n h m k)) = ix3 n h m :=
    funext fun a => Fin.ext (by match a with | ⟨0, _⟩ => rfl | ⟨1, _⟩ => rfl | ⟨2, _⟩ => rfl)
  rw [val_main_v55_apply, val_main_v54_apply, val_main_v53_apply, e, v51_at, v52_at]
  rfl

/-- Head `h`'s output at point `m`, coordinate `e`. -/
theorem v56_at (x0 : S262144x256.Idx → EReal) (x1 : S262144x3.Idx → EReal) (x2 : S256x768.Idx → EReal)
    (x3 : S768.Idx → EReal) (x4 : S3x256.Idx → EReal) (x5 : S256.Idx → EReal) (x8 : S1x8x1x1.Idx → EReal)
    (n : Fin 8192) (h : Fin 8) (m e : Fin 32) :
    val_main_v56 (F := Ideal) x0 x1 x2 x3 x4 x5 x8 (ix4 n h m e) = mixed (posOf x1 n) (qkvOf x0 x1 x2 x3 x4 x5 n) (sigOf x8) m h e := by
  have el : ∀ k : Fin 32, lidx_main_v56 (ix4 n h m e) k = ix4 n h m k := fun k =>
    funext fun a => Fin.ext (by match a with | ⟨0, _⟩ => rfl | ⟨1, _⟩ => rfl | ⟨2, _⟩ => rfl | ⟨3, _⟩ => rfl)
  have er : ∀ k : Fin 32, ridx_main_v56 (ix4 n h m e) k = ix4 n h k e := fun k =>
    funext fun a => Fin.ext (by match a with | ⟨0, _⟩ => rfl | ⟨1, _⟩ => rfl | ⟨2, _⟩ => rfl | ⟨3, _⟩ => rfl)
  rw [val_main_v56_apply]
  exact Finset.sum_congr rfl fun k _ => by rw [el k, er k, v55_at, v26_at]

end Cert.RefSide

end
-- ==== Proof.RefOut.lean ====
/-
  The end of the reference: the heads' outputs side by side as rows of the whole array, the output
  projection with its bias, and the whole result as the specification's function of the argument arrays.
  Row r is point r % 32 of ball r / 32.
-/
import proofs.«173495_j42880953483553_1_alg».proof.Proof.RefSoftmax

noncomputable section

namespace Cert.RefSide

open Cert.ReferenceIdeal Cert.ReferenceIdeal.Read Cert.BallAttention
open Idealize.ShloMosaic Idealize.ShloMosaic.ValueIdx

/-- The heads' outputs side by side: column `c` of point `m`'s row is coordinate c % 32 of head c / 32. -/
theorem v58_at (x0 : S262144x256.Idx → EReal) (x1 : S262144x3.Idx → EReal) (x2 : S256x768.Idx → EReal)
    (x3 : S768.Idx → EReal) (x4 : S3x256.Idx → EReal) (x5 : S256.Idx → EReal) (x8 : S1x8x1x1.Idx → EReal)
    (n : Fin 8192) (m : Fin 32) (c : Fin 256) :
    val_main_v58 (F := Ideal) x0 x1 x2 x3 x4 x5 x8 (ix2 (row n m) c) = heads (posOf x1 n) (qkvOf x0 x1 x2 x3 x4 x5 n) (sigOf x8) m c := by
  have hn := n.isLt; have hm := m.isLt; have hc := c.isLt
  have e : idx_main_v57 (idx_main_v58 (ix2 (row n m) c))
      = ix4 n (⟨c.val / 32, by omega⟩ : Fin 8) m (⟨c.val % 32, Nat.mod_lt _ (by decide)⟩ : Fin 32) := by
    refine funext fun a => Fin.ext ?_
    match a with
    | ⟨0, _⟩ => show ((n.val * 32 + m.val) * 256 + c.val) / 8192 = n.val; omega
    | ⟨1, _⟩ => show ((n.val * 32 + m.val) * 256 + c.val) / 32 % 8 = c.val / 32; omega
    | ⟨2, _⟩ => show ((n.val * 32 + m.val) * 256 + c.val) / 256 % 32 = m.val; omega
    | ⟨3, _⟩ => show ((n.val * 32 + m.val) * 256 + c.val) % 32 = c.val % 32; omega
  rw [val_main_v58_apply, val_main_v57_apply, e, v56_at]
  rfl

/-- The output rows of ball `n`. -/
theorem v62_at (x0 : S262144x256.Idx → EReal) (x1 : S262144x3.Idx → EReal) (x2 : S256x768.Idx → EReal)
    (x3 : S768.Idx → EReal) (x4 : S3x256.Idx → EReal) (x5 : S256.Idx → EReal) (x6 : S256x256.Idx → EReal)
    (x7 : S256.Idx → EReal) (x8 : S1x8x1x1.Idx → EReal)
    (n : Fin 8192) (m : Fin 32) (q : Fin 256) :
    val_main_v62 (F := Ideal) x0 x1 x2 x3 x4 x5 x6 x7 x8 (ix2 (row n m) q)
      = ball (featOf x0 n) (posOf x1 n) (fun k j => x2 (ix2 k j)) (fun j => x3 (ix1 j))
          (fun d k => x4 (ix2 d k)) (fun k => x5 (ix1 k)) (fun k q => x6 (ix2 k q)) (fun q => x7 (ix1 q))
          (sigOf x8) m q := by
  have el : ∀ k : Fin 256, lidx_main_v59 (ix2 (row n m) q) k = ix2 (row n m) k := fun k =>
    funext fun a => Fin.ext (by match a with | ⟨0, _⟩ => rfl | ⟨1, _⟩ => rfl)
  have er : ∀ k : Fin 256, ridx_main_v59 (ix2 (row n m) q) k = ix2 k q := fun k =>
    funext fun a => Fin.ext (by match a with | ⟨0, _⟩ => rfl | ⟨1, _⟩ => rfl)
  have eb : idx_main_v60 (idx_main_v61 (ix2 (row n m) q)) = ix1 q :=
    funext fun a => Fin.ext (by match a with | ⟨0, _⟩ => rfl)
  have s : (∑ k : Fin 256, val_main_v58 (F := Ideal) x0 x1 x2 x3 x4 x5 x8 (lidx_main_v59 (ix2 (row n m) q) k)
        * x6 (ridx_main_v59 (ix2 (row n m) q) k))
      = ∑ k : Fin 256, heads (posOf x1 n) (qkvOf x0 x1 x2 x3 x4 x5 n) (sigOf x8) m k * x6 (ix2 k q) :=
    Finset.sum_congr rfl fun k _ => by rw [el k, er k, v58_at]
  rw [val_main_v62_apply, val_main_v59_apply, val_main_v61_apply, val_main_v60_apply, s, eb]
  rfl

/-- The reference computes the specification: every row from its ball. -/
theorem reference_eq (x0 : S262144x256.Idx → EReal) (x1 : S262144x3.Idx → EReal) (x2 : S256x768.Idx → EReal)
    (x3 : S768.Idx → EReal) (x4 : S3x256.Idx → EReal) (x5 : S256.Idx → EReal) (x6 : S256x256.Idx → EReal)
    (x7 : S256.Idx → EReal) (x8 : S1x8x1x1.Idx → EReal) :
    val_main_v62 (F := Ideal) x0 x1 x2 x3 x4 x5 x6 x7 x8
      = result (R := 262144) (by decide) x0 x1 x2 x3 x4 x5 x6 x7 x8 := by
  funext i
  have h0 : (i 0).val < 262144 := idx2_lt0 i
  have ei : i = ix2 (row ⟨(i 0).val / 32, by omega⟩ ⟨(i 0).val % 32, Nat.mod_lt _ (by decide)⟩) (i 1) := by
    funext a
    match a with
    | ⟨0, _⟩ => exact Fin.ext (show (i 0).val = (i 0).val / 32 * 32 + (i 0).val % 32 by omega)
    | ⟨1, _⟩ => rfl
  refine (congrArg (val_main_v62 (F := Ideal) x0 x1 x2 x3 x4 x5 x6 x7 x8) ei).trans ?_
  refine (v62_at x0 x1 x2 x3 x4 x5 x6 x7 x8 _ _ _).trans ?_
  rfl

end Cert.RefSide

end
-- ==== Proof.Final.lean ====
/-
  From what each grid point writes back to the whole result array, and the two programs side by side.

  Grid point t handles rows t·2048 … t·2048 + 2047: the feature and position blocks are those rows of the argument
  arrays, the weight windows are the whole weight arrays (the two projection matrices after a change of float
  format, which is the identity on the extended reals; the three bias vectors reshaped to one row). A ball never
  straddles two blocks (2048 = 64·32), so the specification's result at a row of the block, computed from the block,
  is its result at that row of the whole array. The 128 blocks tile the array, so the array after the run is the
  specification's result everywhere; the reference computes the same function of arrays that agree.
-/
import proofs.«173495_j42880953483553_1_alg».proof.Defs
import proofs.«173495_j42880953483553_1_alg».proof.Proof.Gen.Kernel
import proofs.«173495_j42880953483553_1_alg».proof.Proof.Gen.Kernel.Frame
import proofs.«173495_j42880953483553_1_alg».proof.Proof.Gen.KernelIdeal
import proofs.«173495_j42880953483553_1_alg».proof.Proof.Gen.ReferenceIdeal
import proofs.«173495_j42880953483553_1_alg».proof.Proof.Gen.Pre_finite_inputs
import proofs.«173495_j42880953483553_1_alg».proof.Proof.Gen.KernelIdeal.Value
import proofs.«173495_j42880953483553_1_alg».proof.Proof.Gen.ReferenceIdeal.Run
import proofs.«173495_j42880953483553_1_alg».proof.Proof.Gen.ReferenceIdeal.Read
import proofs.«173495_j42880953483553_1_alg».proof.Proof.Block
import proofs.«173495_j42880953483553_1_alg».proof.Proof.RefOut
import Idealize.ShloMosaic.Lib.Pipeline.Value
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.BallAttention

variable (m : (ℓ : Loc nD τ sig) → Buf (Elt Ideal) ℓ) (ρ : Dev nD → PrngReg)

/-- The specification's result of the argument arrays as launched. -/
def G (c : Dev nD) : S262144x256.Idx → EReal :=
  result (R := 262144) (by decide)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## What the region finds in the arrays the host wrote -/

theorem V_v0 (c : Dev nD) : (V m c main_v0 : S256x768.Idx → EReal) = m ((c : Thread nD τ).loc main_arg2) := by
  dsimp only [Gen.V, Gen.hostOps0]; after_results; rfl
theorem V_v1 (c : Dev nD) : (V m c main_v1 : S256x256.Idx → EReal) = m ((c : Thread nD τ).loc main_arg6) := by
  dsimp only [Gen.V, Gen.hostOps0]; after_results; rfl
theorem V_v2 (c : Dev nD) : (V m c main_v2 : S1x768.Idx → EReal)
    = shapeCast S1x768 (m ((c : Thread nD τ).loc main_arg3)) shapeCasts_S768_S1x768 := by
  dsimp only [Gen.V, Gen.hostOps0]; after_results; rfl
theorem V_v3 (c : Dev nD) : (V m c main_v3 : S1x256.Idx → EReal)
    = shapeCast S1x256 (m ((c : Thread nD τ).loc main_arg5)) shapeCasts_S256_S1x256 := by
  dsimp only [Gen.V, Gen.hostOps0]; after_results; rfl
theorem V_v4 (c : Dev nD) : (V m c main_v4 : S1x256.Idx → EReal)
    = shapeCast S1x256 (m ((c : Thread nD τ).loc main_arg7)) shapeCasts_S256_S1x256 := by
  dsimp only [Gen.V, Gen.hostOps0]; after_results; rfl

/-! ## The index maps, decided over the grid -/

/-- The two row blocks and the output block move with the point; every other window is its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 4) = 0 ∧ win0_8.index t (1 : Fin 4) = 0 ∧ win0_8.index t (2 : Fin 4) = 0 ∧ win0_8.index t (3 : Fin 4) = 0
    ∧ win0_9.index t (0 : Fin 2) = t.val ∧ win0_9.index t (1 : Fin 2) = 0 :=
  (by decide +kernel : ∀ t : Fin grid0.N, _)

theorem t_lt (t : Fin cfg0.N) : t.val < 128 := lt_of_lt_of_eq t.isLt N_0

/-- Row `r` of point `t`'s block as a row of the whole array. -/
def gRow (t : Fin cfg0.N) (r : Fin 2048) : Fin 262144 :=
  ⟨t.val * 2048 + r.val, by have := t_lt t; have := r.isLt; omega⟩

/-! ## The blocks a point is handed -/

theorem rd0 (c : Dev nD) (t : Fin cfg0.N) (y : S2048x256.Idx) :
    (iblk m c 0 t : S2048x256.Idx → EReal) y = m ((c : Thread nD τ).loc main_arg0) (ix2 (gRow t (y 0)) (y 1)) := by
  obtain ⟨e0, e1, -⟩ := idx_facts t
  show V m c main_arg0 (((cfg0.win 0).blk t).view.emb y) = _
  rw [V_main_arg0]
  refine congrArg (m ((c : Thread nD τ).loc main_arg0)) ?_
  funext a; apply Fin.ext
  match a with
  | ⟨0, _⟩ => show win0_0.index t (0 : Fin 2) * 2048 + 1 * (y 0).val = t.val * 2048 + (y 0).val; omega
  | ⟨1, _⟩ => show win0_0.index t (1 : Fin 2) * 256 + 1 * (y 1).val = (y 1).val; omega

theorem rd1 (c : Dev nD) (t : Fin cfg0.N) (y : S2048x3.Idx) :
    (iblk m c 1 t : S2048x3.Idx → EReal) y = m ((c : Thread nD τ).loc main_arg1) (ix2 (gRow t (y 0)) (y 1)) := by
  obtain ⟨-, -, e0, e1, -⟩ := idx_facts t
  show V m c main_arg1 (((cfg0.win 1).blk t).view.emb y) = _
  rw [V_main_arg1]
  refine congrArg (m ((c : Thread nD τ).loc main_arg1)) ?_
  funext a; apply Fin.ext
  match a with
  | ⟨0, _⟩ => show win0_1.index t (0 : Fin 2) * 2048 + 1 * (y 0).val = t.val * 2048 + (y 0).val; omega
  | ⟨1, _⟩ => show win0_1.index t (1 : Fin 2) * 3 + 1 * (y 1).val = (y 1).val; omega

theorem rd2 (c : Dev nD) (t : Fin cfg0.N) (y : S256x768.Idx) :
    (iblk m c 2 t : S256x768.Idx → EReal) y = m ((c : Thread nD τ).loc main_arg2) y := by
  obtain ⟨-, -, -, -, e0, e1, -⟩ := idx_facts t
  show V m c main_v0 (((cfg0.win 2).blk t).view.emb y) = _
  rw [V_v0]
  refine congrArg (m ((c : Thread nD τ).loc main_arg2)) ?_
  funext a; apply Fin.ext
  match a with
  | ⟨0, _⟩ => show win0_2.index t (0 : Fin 2) * 256 + 1 * (y 0).val = (y 0).val; omega
  | ⟨1, _⟩ => show win0_2.index t (1 : Fin 2) * 768 + 1 * (y 1).val = (y 1).val; omega

theorem rd3 (c : Dev nD) (t : Fin cfg0.N) (j : Fin 768) :
    (iblk m c 3 t : S1x768.Idx → EReal) (ix2 (0 : Fin 1) j) = m ((c : Thread nD τ).loc main_arg3) (ix1 j) := by
  obtain ⟨-, -, -, -, -, -, e0, e1, -⟩ := idx_facts t
  show V m c main_v2 (((cfg0.win 3).blk t).view.emb (ix2 (0 : Fin 1) j)) = _
  rw [V_v2]
  refine shapeCast_apply _ shapeCasts_S768_S1x768 _ (ix1 j) ?_
  rw [Shape.rowMajor_val_one, Shape.rowMajor_val_two]
  show j.val = (win0_3.index t (0 : Fin 2) * 1 + 1 * 0) * 768 + (win0_3.index t (1 : Fin 2) * 768 + 1 * j.val)
  omega

theorem rd4 (c : Dev nD) (t : Fin cfg0.N) (y : S3x256.Idx) :
    (iblk m c 4 t : S3x256.Idx → EReal) y = m ((c : Thread nD τ).loc main_arg4) y := by
  obtain ⟨-, -, -, -, -, -, -, -, e0, e1, -⟩ := idx_facts t
  show V m c main_arg4 (((cfg0.win 4).blk t).view.emb y) = _
  rw [V_main_arg4]
  refine congrArg (m ((c : Thread nD τ).loc main_arg4)) ?_
  funext a; apply Fin.ext
  match a with
  | ⟨0, _⟩ => show win0_4.index t (0 : Fin 2) * 3 + 1 * (y 0).val = (y 0).val; omega
  | ⟨1, _⟩ => show win0_4.index t (1 : Fin 2) * 256 + 1 * (y 1).val = (y 1).val; omega

theorem rd5 (c : Dev nD) (t : Fin cfg0.N) (k : Fin 256) :
    (iblk m c 5 t : S1x256.Idx → EReal) (ix2 (0 : Fin 1) k) = m ((c : Thread nD τ).loc main_arg5) (ix1 k) := by
  obtain ⟨-, -, -, -, -, -, -, -, -, -, e0, e1, -⟩ := idx_facts t
  show V m c main_v3 (((cfg0.win 5).blk t).view.emb (ix2 (0 : Fin 1) k)) = _
  rw [V_v3]
  refine shapeCast_apply _ shapeCasts_S256_S1x256 _ (ix1 k) ?_
  rw [Shape.rowMajor_val_one, Shape.rowMajor_val_two]
  show k.val = (win0_5.index t (0 : Fin 2) * 1 + 1 * 0) * 256 + (win0_5.index t (1 : Fin 2) * 256 + 1 * k.val)
  omega

theorem rd6 (c : Dev nD) (t : Fin cfg0.N) (y : S256x256.Idx) :
    (iblk m c 6 t : S256x256.Idx → EReal) y = m ((c : Thread nD τ).loc main_arg6) y := by
  obtain ⟨-, -, -, -, -, -, -, -, -, -, -, -, e0, e1, -⟩ := idx_facts t
  show V m c main_v1 (((cfg0.win 6).blk t).view.emb y) = _
  rw [V_v1]
  refine congrArg (m ((c : Thread nD τ).loc main_arg6)) ?_
  funext a; apply Fin.ext
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem rd7 (c : Dev nD) (t : Fin cfg0.N) (k : Fin 256) :
    (iblk m c 7 t : S1x256.Idx → EReal) (ix2 (0 : Fin 1) k) = m ((c : Thread nD τ).loc main_arg7) (ix1 k) := by
  obtain ⟨-, -, -, -, -, -, -, -, -, -, -, -, -, -, e0, e1, -⟩ := idx_facts t
  show V m c main_v4 (((cfg0.win 7).blk t).view.emb (ix2 (0 : Fin 1) k)) = _
  rw [V_v4]
  refine shapeCast_apply _ shapeCasts_S256_S1x256 _ (ix1 k) ?_
  rw [Shape.rowMajor_val_one, Shape.rowMajor_val_two]
  show k.val = (win0_7.index t (0 : Fin 2) * 1 + 1 * 0) * 256 + (win0_7.index t (1 : Fin 2) * 256 + 1 * k.val)
  omega

theorem rd8 (c : Dev nD) (t : Fin cfg0.N) (y : S1x8x1x1.Idx) :
    (iblk m c 8 t : S1x8x1x1.Idx → EReal) y = m ((c : Thread nD τ).loc main_arg8) y := by
  obtain ⟨-, -, -, -, -, -, -, -, -, -, -, -, -, -, -, -, e0, e1, e2, e3, -⟩ := idx_facts t
  show V m c main_arg8 (((cfg0.win 8).blk t).view.emb y) = _
  rw [V_main_arg8]
  refine congrArg (m ((c : Thread nD τ).loc main_arg8)) ?_
  funext a; apply Fin.ext
  match a with
  | ⟨0, _⟩ => show win0_8.index t (0 : Fin 4) * 1 + 1 * (y 0).val = (y 0).val; omega
  | ⟨1, _⟩ => show win0_8.index t (1 : Fin 4) * 8 + 1 * (y 1).val = (y 1).val; omega
  | ⟨2, _⟩ => show win0_8.index t (2 : Fin 4) * 1 + 1 * (y 2).val = (y 2).val; omega
  | ⟨3, _⟩ => show win0_8.index t (3 : Fin 4) * 1 + 1 * (y 3).val = (y 3).val; omega

/-! ## A block's result rows are rows of the whole result -/

theorem ball_congr {X X' : Fin 32 → Fin 256 → EReal} {P P' : Fin 32 → Fin 3 → EReal}
    {Wq Wq' : Fin 256 → Fin 768 → EReal} {Bq Bq' : Fin 768 → EReal} {We We' : Fin 3 → Fin 256 → EReal} {Be Be' : Fin 256 → EReal}
    {Wp Wp' : Fin 256 → Fin 256 → EReal} {Bp Bp' : Fin 256 → EReal} {S S' : Fin 8 → EReal} {p p' : Fin 32} (q : Fin 256)
    (h0 : X = X') (h1 : P = P') (h2 : Wq = Wq') (h3 : Bq = Bq') (h4 : We = We') (h5 : Be = Be') (h6 : Wp = Wp') (h7 : Bp = Bp')
    (h8 : S = S') (h9 : p = p') :
    ball X P Wq Bq We Be Wp Bp S p q = ball X' P' Wq' Bq' We' Be' Wp' Bp' S' p' q := by
  rw [h0, h1, h2, h3, h4, h5, h6, h7, h8, h9]

theorem block_eq (c : Dev nD) (t : Fin cfg0.N) (y : S2048x256.Idx) :
    blockResult (iblk m c 0 t) (iblk m c 1 t) (iblk m c 2 t) (iblk m c 3 t) (iblk m c 4 t) (iblk m c 5 t) (iblk m c 6 t)
        (iblk m c 7 t) (iblk m c 8 t) y
      = G m c (ix2 (gRow t (y 0)) (y 1)) := by
  have ht := t_lt t
  have hy := (y 0).isLt
  unfold blockResult G result
  refine ball_congr (y 1) ?_ ?_ ?_ ?_ ?_ ?_ ?_ ?_ ?_ ?_
  · funext mm k
    have := mm.isLt
    unfold bX
    rw [rd0]
    refine congrArg (fun R => m ((c : Thread nD τ).loc main_arg0) (ix2 R k)) (Fin.ext ?_)
    show t.val * 2048 + ((y 0).val / 32 * 32 + mm.val) = (t.val * 2048 + (y 0).val) / 32 * 32 + mm.val
    omega
  · funext mm d
    have := mm.isLt
    unfold bP
    rw [rd1]
    refine congrArg (fun R => m ((c : Thread nD τ).loc main_arg1) (ix2 R d)) (Fin.ext ?_)
    show t.val * 2048 + ((y 0).val / 32 * 32 + mm.val) = (t.val * 2048 + (y 0).val) / 32 * 32 + mm.val
    omega
  · funext k j; exact rd2 m c t _
  · funext j; exact rd3 m c t j
  · funext d k; exact rd4 m c t _
  · funext k; exact rd5 m c t k
  · funext k q; exact rd6 m c t _
  · funext q; exact rd7 m c t q
  · funext h; unfold bS; exact rd8 m c t _
  · exact Fin.ext (by show (y 0).val % 32 = (t.val * 2048 + (y 0).val) % 32; omega)

/-! ## The whole array -/

/-- What point `t` writes back is block `t` of the specification's result. -/
theorem flushed_eq (c : Dev nD) (t : Fin cfg0.N) :
    (dats m 0 c).flushed 9 t = ((cfg0.win 9).blk t).view.read (Elt Ideal) (G m c) := by
  rw [Cert.KernelIdeal.Value.flushed9_A, out_block]
  funext j
  show blockResult (iblk m c 0 t) (iblk m c 1 t) (iblk m c 2 t) (iblk m c 3 t) (iblk m c 4 t) (iblk m c 5 t) (iblk m c 6 t)
      (iblk m c 7 t) (iblk m c 8 t) j = G m c (((cfg0.win 9).blk t).view.emb j)
  rw [block_eq]
  refine congrArg (G m c) ?_
  have e := (idx_facts t).2.2.2.2.2.2.2.2.2.2.2.2.2.2.2.2.2.2.2.2
  funext a; apply Fin.ext
  match a with
  | ⟨0, _⟩ => show t.val * 2048 + (j 0).val = win0_9.index t (0 : Fin 2) * 2048 + 1 * (j 0).val; have := e.1; omega
  | ⟨1, _⟩ => show (j 1).val = win0_9.index t (1 : Fin 2) * 256 + 1 * (j 1).val; have := e.2; omega

/-- An index of the array is in point `t`'s block iff each coordinate is in the block's range on its axis. -/
theorem mem_blk (t : Fin cfg0.N) (i : S262144x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v5).slice (win0_9.rect t)).set ↔ _
  rw [View.set_slice_whole, Rect.mem_set_unit]
  exact Iff.rfl

/-- Row i belongs to the block of point i / 2048. -/
theorem cover (i : S262144x256.Idx) : ∃ t : Fin cfg0.N, (cfg0.win 9).flush t = true ∧ i ∈ ((cfg0.win 9).blk t).view.set := by
  have hi : (i 0).val < 262144 := (i 0).isLt
  have hj : (i 1).val < 256 := (i 1).isLt
  have hN : grid0.N = 128 := N_0
  let t : Fin cfg0.N := ⟨(i 0).val / 2048, by show (i 0).val / 2048 < grid0.N; rw [hN]; omega⟩
  have e := (idx_facts t).2.2.2.2.2.2.2.2.2.2.2.2.2.2.2.2.2.2.2.2
  have e0 : win0_9.index t (0 : Fin 2) = (i 0).val / 2048 := e.1
  have e1 : win0_9.index t (1 : Fin 2) = 0 := e.2
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 256 ≤ (i 1).val ∧ (i 1).val < win0_9.index t (1 : Fin 2) * 256 + 256; omega

/-- The result array after the run is the specification's result of the arguments. -/
theorem final (c : Dev nD) : (dats m 0 c).arrAt 9 cfg0.N = G m c :=
  (dats m 0 c).arrAt_eq_of_cover 9 (G m c) (fun t _ => flushed_eq m c t) cover

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Whole

/-! ## The claims -/

namespace Cert.Proof.Claims

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ => Cert.Kernel.Gen.frame m ρ
theorem frame_ki : Cert.frame_KernelIdeal (hKernelIdeal := Cert.KernelIdeal.Gen.facts) (hPre_finite_inputs := Cert.Pre_finite_inputs.Gen.facts) := fun m ρ _ => Cert.KernelIdeal.Gen.frame m ρ
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the specification's result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v62_eq, Cert.RefSide.reference_eq, a0, a1, a2, a3, a4, a5, a6, a7, a8]
  rfl

end Cert.Proof.Claims

end
-- ==== Proof.lean ====
/-
  Ball attention: a fused kernel against its array-level reference, over the extended reals.

  Both programs take 262144 points in balls of 32 consecutive points, each with a 256-number feature row and a
  position in space. Inside a ball the positions are centred on their mean and embedded into the features; a fused
  projection gives every point a query, a key and a value for each of 8 heads of width 32; the score of two points
  of a ball is the scaled product of query and key plus the floored distance between the points times the head's
  coefficient; the scores of a point are turned into weights by the exponential of the score minus the row's top
  score, normalised by their sum; the weighted values of the 8 heads, side by side, go through an output projection.

  The kernel does this 64 balls at a time, 16 balls at a time for the attention itself, with its matrix products
  taken in a narrower float format; the reference does it on whole arrays. On the extended reals a change of float
  format is the identity and a matrix product is the sum of the products, so both are the one specification
  (Proof/Spec.lean): the reference by reading its operations at an index one at a time (Proof/RefPos.lean …
  Proof/RefOut.lean), the kernel by reading one chunk at an index (Proof/Chunk.lean … Proof/ChunkOut.lean), the
  block's projected rows (Proof/Proj.lean), what a grid point leaves in the output's buffer (Proof/Block.lean), and
  the blocks' tiling of the array (Proof/Final.lean). The two programs differ only in laws that hold of all
  extended reals: a three-term sum written out against a sum over three indices, and the order of the two factors
  of the bias. Nothing needs the inputs to be finite.
-/
import proofs.«173495_j42880953483553_1_alg».proof.Defs
import proofs.«173495_j42880953483553_1_alg».proof.Proof.Gen.Kernel
import proofs.«173495_j42880953483553_1_alg».proof.Proof.Gen.Kernel.Skeleton
import proofs.«173495_j42880953483553_1_alg».proof.Proof.Gen.Kernel.Launch
import proofs.«173495_j42880953483553_1_alg».proof.Proof.Gen.Kernel.Points
import proofs.«173495_j42880953483553_1_alg».proof.Proof.Gen.Kernel.Frame
import proofs.«173495_j42880953483553_1_alg».proof.Proof.Gen.KernelIdeal
import proofs.«173495_j42880953483553_1_alg».proof.Proof.Gen.KernelIdeal.Skeleton
import proofs.«173495_j42880953483553_1_alg».proof.Proof.Gen.KernelIdeal.Launch
import proofs.«173495_j42880953483553_1_alg».proof.Proof.Gen.KernelIdeal.Points
import proofs.«173495_j42880953483553_1_alg».proof.Proof.Gen.KernelIdeal.Frame
import proofs.«173495_j42880953483553_1_alg».proof.Proof.Gen.ReferenceIdeal
import proofs.«173495_j42880953483553_1_alg».proof.Proof.Gen.Pre_finite_inputs
import proofs.«173495_j42880953483553_1_alg».proof.Proof.Gen.KernelIdeal.Value
import proofs.«173495_j42880953483553_1_alg».proof.Proof.Gen.ReferenceIdeal.Run
import proofs.«173495_j42880953483553_1_alg».proof.Proof.Gen.ReferenceIdeal.Read
import proofs.«173495_j42880953483553_1_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
